-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S512x128 .f32) (main_arg10 : FVec F S128 .f32) (main_arg11 : FVec F S128 .f32) (main_arg12 : FVec F S128 .f32) (main_arg13 : FVec F S128 .f32) (main_arg14 : FVec F S128 .f32) (main_v33 : IVec S_ 1) : IVec S_ 1 :=
  let main_v34 : FVec F S512x128 .f32 := Host.absf main_arg9
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x512 .f32) (main_arg8 : FVec F S512 .f32) (main_arg9 : FVec F S512x128 .f32) (main_arg10 : FVec F S128 .f32) (main_arg11 : FVec F S128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x512 .f32 := Host.absf main_arg7
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x512 .f32) (main_arg8 : FVec F S512 .f32) (main_arg9 : FVec F S512x128 .f32) (main_arg10 : FVec F S128 .f32) (main_arg11 : FVec F S128 .f32) (main_arg12 : FVec F S128 .f32) (main_arg13 : FVec F S128 .f32) (main_arg14 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩
abbrev S100000 : Shape := ⟨1, ![100000]⟩
abbrev S1600000x1 : Shape := ⟨2, ![1600000, 1]⟩
abbrev S20000 : Shape := ⟨1, ![20000]⟩
abbrev S100000x1 : Shape := ⟨2, ![100000, 1]⟩
abbrev S20000x1 : Shape := ⟨2, ![20000, 1]⟩
abbrev S1600000x128 : Shape := ⟨2, ![1600000, 128]⟩
abbrev S20000x128 : Shape := ⟨2, ![20000, 128]⟩
abbrev S1x128 : Shape := ⟨2, ![1, 128]⟩
abbrev S4000x128 : Shape := ⟨2, ![4000, 128]⟩
abbrev S4000x1 : Shape := ⟨2, ![4000, 1]⟩
abbrev S1x512 : Shape := ⟨2, ![1, 512]⟩
abbrev S2000x128 : Shape := ⟨2, ![2000, 128]⟩
abbrev S2000x1 : Shape := ⟨2, ![2000, 1]⟩
abbrev S2000 : Shape := ⟨1, ![2000]⟩
abbrev S2000x512 : Shape := ⟨2, ![2000, 512]⟩

abbrev nBuf : Space → Nat
  | .hbm => 73
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S20000, .f32⟩
  | .hbm, ⟨26, _⟩ => ⟨S1600000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S100000, .f32⟩
  | .hbm, ⟨32, _⟩ => ⟨S100000x1, .f32⟩
  | .hbm, ⟨33, _⟩ => ⟨S20000, .f32⟩
  | .hbm, ⟨34, _⟩ => ⟨S20000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S20000x128, .f32⟩
  | .hbm, ⟨48, _⟩ => ⟨S1600000x1, .i32⟩
  | .hbm, ⟨49, _⟩ => ⟨S20000x128, .f32⟩
  | .hbm, ⟨50, _⟩ => ⟨S1x128, .f32⟩
  | .hbm, ⟨51, _⟩ => ⟨S20000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S1x512, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S1x128, .f32⟩
  | .local _ .vmem, ⟨16, _⟩ => ⟨S128x512, .f32⟩
  | .local _ .vmem, ⟨17, _⟩ => ⟨S1x512, .f32⟩
  | .local _ .vmem, ⟨18, _⟩ => ⟨S512x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem13_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S100000_S100000x1_0 : S100000.BroadcastsInDim S100000x1 (![0] : Fin 1 → Fin S100000x1.rank)
  bcast_S20000_S20000x1_0 : S20000.BroadcastsInDim S20000x1 (![0] : Fin 1 → Fin S20000x1.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S100000x128 : S_.BroadcastsInDim S100000x128 (![] : Fin 0 → Fin S100000x128.rank)
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  reduces_S2000x128_S2000 : S2000x128.Reduces [1] S2000
  shapeCasts_S2000_S2000x1 : S2000.ShapeCasts S2000x1
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  dot_S4000x128_S128x128_S4000x128_1_0_0_1_n_n_wf : DotDims.WF S4000x128 S128x128 S4000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S20000x1.size a
  hwx0_1 : ∀ i : grid0.Coords, EltTy.bits .f32 = 32 ∨ (Rect.block (s := S20000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S20000x128.size a
  hwx0_4 : ∀ i : grid0.Coords, EltTy.bits .f32 = 32 ∨ (Rect.block (s := S20000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S128x512.size a
  hwx1_5 : ∀ i : grid1.Coords, EltTy.bits .f32 = 32 ∨ (Rect.block (s := S128x512) S128x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S512x128.size a
  hwx1_7 : ∀ i : grid1.Coords, EltTy.bits .f32 = 32 ∨ (Rect.block (s := S512x128) S512x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x128.size a ≤ S100000x128.size a
  hwx1_13 : ∀ i : grid1.Coords, EltTy.bits .f32 = 32 ∨ (Rect.block (s := S100000x128) S2000x128.size (cc1_transform_13 i) (hinb1_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v26) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S512x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v44) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v45) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v46) S2000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩
abbrev S100000 : Shape := ⟨1, ![100000]⟩
abbrev S1600000x1 : Shape := ⟨2, ![1600000, 1]⟩
abbrev S20000 : Shape := ⟨1, ![20000]⟩
abbrev S100000x1 : Shape := ⟨2, ![100000, 1]⟩
abbrev S20000x1 : Shape := ⟨2, ![20000, 1]⟩
abbrev S1600000x128 : Shape := ⟨2, ![1600000, 128]⟩
abbrev S20000x128 : Shape := ⟨2, ![20000, 128]⟩
abbrev S1x128 : Shape := ⟨2, ![1, 128]⟩
abbrev S100000x512 : Shape := ⟨2, ![100000, 512]⟩
abbrev S1x512 : Shape := ⟨2, ![1, 512]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x512, .f32⟩
  | 8 => ⟨S512, .f32⟩
  | 9 => ⟨S512x128, .f32⟩
  | 10 => ⟨S128, .f32⟩
  | 11 => ⟨S128, .f32⟩
  | 12 => ⟨S128, .f32⟩
  | 13 => ⟨S128, .f32⟩
  | 14 => ⟨S128, .f32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S20000, .f32⟩
  | 26 => ⟨S1600000x1, .i32⟩
  | 27 => ⟨S20000, .f32⟩
  | 28 => ⟨S_, .f32⟩
  | 29 => ⟨S20000, .f32⟩
  | 30 => ⟨S20000, .f32⟩
  | 31 => ⟨S100000, .f32⟩
  | 32 => ⟨S100000x1, .f32⟩
  | 33 => ⟨S20000, .f32⟩
  | 34 => ⟨S20000x1, .f32⟩
  | 35 => ⟨S100000x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S20000x128, .f32⟩
  | 48 => ⟨S1600000x1, .i32⟩
  | 49 => ⟨S20000x128, .f32⟩
  | 50 => ⟨S20000x128, .f32⟩
  | 51 => ⟨S20000x128, .f32⟩
  | 52 => ⟨S20000x128, .f32⟩
  | 53 => ⟨S1x128, .f32⟩
  | 54 => ⟨S20000x128, .f32⟩
  | 55 => ⟨S20000x128, .f32⟩
  | 56 => ⟨S20000x128, .f32⟩
  | 57 => ⟨S20000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S100000x512, .f32⟩
  | 108 => ⟨S1x512, .f32⟩
  | 109 => ⟨S100000x512, .f32⟩
  | 110 => ⟨S100000x512, .f32⟩
  | 111 => ⟨S_, .f32⟩
  | 112 => ⟨S100000x512, .f32⟩
  | 113 => ⟨S100000x512, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S_, .f32⟩
  | 9 => ⟨S100000x1, .f32⟩
  | 10 => ⟨S100000x1, .f32⟩
  | 11 => ⟨S100000x1, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call0_cst : Ref sig .tc := ⟨.hbm, 111, rfl⟩
abbrev main_call0_v0 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_16 : Ref sig .tc := ⟨.hbm, 128, rfl⟩
abbrev main_v93 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_18 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S100000_S100000x1_0 : S100000.BroadcastsInDim S100000x1 (![0] : Fin 1 → Fin S100000x1.rank)
  bcast_S20000_S20000x1_0 : S20000.BroadcastsInDim S20000x1 (![0] : Fin 1 → Fin S20000x1.rank)
  bcast_S100000x1_S100000x128_0_1 : S100000x1.BroadcastsInDim S100000x128 (![0, 1] : Fin 2 → Fin S100000x128.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  dot_S20000x128_S128x128_S20000x128_1_0_0_1_n_n_wf : DotDims.WF S20000x128 S128x128 S20000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x512_S100000x512_1_0_0_1_n_n_wf : DotDims.WF S100000x128 S128x512 S100000x512 [1] [0] [0] [1] [] []
  dot_S100000x512_S512x128_S100000x128_1_0_0_1_n_n_wf : DotDims.WF S100000x512 S512x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.KRun.lean ====
/-
  The idealized kernel program's run with its result kept: from any launch memory every weakly fair execution ends, nothing
  faulting, with the result array holding what the second kernel region's write-backs leave in it (the last boundary's
  contents at that buffer) and with every argument array as launched. The run is the chain of the program's four
  segments (host operations, the hyperedge region, host operations, the node region); only the last reading of the final
  state differs from the frame's: the result buffer is read too.
-/
import proofs.«136505_j38603166057018_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.Named

end
-- ==== Proof.Spec.lean ====
/-
  The two dense stages of the hypergraph layer, as functions of one row.

  A hyperedge's row `raw` (its aggregated messages) and its degree scale `ch` give
  `((raw · ch) W1 + b1) · ch`. A node's row `h`, its aggregated messages `raw` and its degree scale `cn` give
  `LN(h1 + relu(h1 W3 + b3) W4 + b4)` with `h1 = LN(h + (raw · cn) W2 + b2)`, where `LN` subtracts the row's mean,
  divides by the root of the mean squared deviation plus a small constant, then scales by `g` and adds `be`
  entry by entry. Everything is over the extended reals: a product of a row with a matrix is the plain sum over the
  contracted coordinate, the mean is the row's sum divided by 128, and the three float constants (128, the small constant
  and the zero the relu compares with) are kept as the values of their words.

  Each output row depends on its own input rows only; the array forms below read a whole array (of any number of rows) row
  by row through these functions.
-/
import Idealize.ShloMosaic.PureOps.Ideal
import Idealize.ShloMosaic.Lib.ValueIdx

noncomputable section

open scoped BigOperators

namespace Cert.Spec

open Idealize.ShloMosaic Idealize.ShloMosaic.ValueIdx

/-- A row times a matrix plus a bias: `(x W + b) q = ∑ k, x k · W k q + b q`. -/
def lin {K C : ℕ} (x : Fin K → EReal) (W : Fin K → Fin C → EReal) (b : Fin C → EReal) : Fin C → EReal :=
  fun q => (∑ k : Fin K, x k * W k q) + b q

/-- The mean of a row of 128 entries: its sum divided by the value of the word of 128.0. -/
def mean (x : Fin 128 → EReal) : EReal :=
  Ideal.div (∑ k : Fin 128, x k) (Ideal.ofBits .f32 0x43000000#32)

/-- Layer normalisation of a row of 128 entries with scale `g` and shift `be`. -/
def layerNorm (x g be : Fin 128 → EReal) : Fin 128 → EReal := fun q =>
  (x q - mean x) * Ideal.rsqrt (mean (fun k => (x k - mean x) * (x k - mean x)) + Ideal.ofBits .f32 0x3727C5AC#32) * g q + be q

/-- A hyperedge's output row. -/
def hyperRow (raw : Fin 128 → EReal) (ch : EReal) (W1 : Fin 128 → Fin 128 → EReal) (b1 : Fin 128 → EReal) :
    Fin 128 → EReal :=
  fun q => lin (fun k => raw k * ch) W1 b1 q * ch

/-- The row after the first normalisation: `LN(h + (raw · cn) W2 + b2)`. -/
def midRow (h raw : Fin 128 → EReal) (cn : EReal) (W2 : Fin 128 → Fin 128 → EReal) (b2 g1 be1 : Fin 128 → EReal) :
    Fin 128 → EReal :=
  layerNorm (fun q => h q + lin (fun k => raw k * cn) W2 b2 q) g1 be1

/-- The feed-forward block and the second normalisation of a row `h1`. -/
def ffnRow (h1 : Fin 128 → EReal) (W3 : Fin 128 → Fin 512 → EReal) (b3 : Fin 512 → EReal)
    (W4 : Fin 512 → Fin 128 → EReal) (b4 g2 be2 : Fin 128 → EReal) : Fin 128 → EReal :=
  layerNorm (fun q => h1 q + lin (fun r => max (lin h1 W3 b3 r) (Ideal.ofBits .f32 0x00000000#32)) W4 b4 q) g2 be2

/-- A node's output row. -/
def nodeRow (h raw : Fin 128 → EReal) (cn : EReal) (W2 : Fin 128 → Fin 128 → EReal) (b2 : Fin 128 → EReal)
    (W3 : Fin 128 → Fin 512 → EReal) (b3 : Fin 512 → EReal) (W4 : Fin 512 → Fin 128 → EReal)
    (b4 g1 be1 g2 be2 : Fin 128 → EReal) : Fin 128 → EReal :=
  ffnRow (midRow h raw cn W2 b2 g1 be1) W3 b3 W4 b4 g2 be2

/-- A two-axis array of extended reals. -/
abbrev Arr2 (a b : ℕ) : Type := (⟨2, ![a, b]⟩ : Shape).Idx → EReal

/-- The hyperedge stage on an array of `n` rows: row `p` of the result is `hyperRow` of row `p` of `raw` and of
    `ch`'s entry for `p`. -/
def hyperArr {n : ℕ} (raw : Arr2 n 128) (ch : Arr2 n 1) (W1 : Arr2 128 128) (b1 : Fin 128 → EReal) : Arr2 n 128 :=
  fun j => hyperRow (fun k => raw (ix2 (j 0) k)) (ch (ix2 (j 0) (0 : Fin 1))) (fun k q => W1 (ix2 k q)) b1 (j 1)

theorem hyperArr_apply {n : ℕ} (raw : Arr2 n 128) (ch : Arr2 n 1) (W1 : Arr2 128 128) (b1 : Fin 128 → EReal)
    (p : Fin n) (q : Fin 128) :
    hyperArr raw ch W1 b1 (ix2 p q)
      = hyperRow (fun k => raw (ix2 p k)) (ch (ix2 p (0 : Fin 1))) (fun k q => W1 (ix2 k q)) b1 q := rfl

/-- The node stage on an array of `n` rows, row by row. -/
def nodeArr {n : ℕ} (h raw : Arr2 n 128) (cn : Arr2 n 1) (W2 : Arr2 128 128) (b2 : Fin 128 → EReal)
    (W3 : Arr2 128 512) (b3 : Fin 512 → EReal) (W4 : Arr2 512 128) (b4 g1 be1 g2 be2 : Fin 128 → EReal) : Arr2 n 128 :=
  fun j => nodeRow (fun k => h (ix2 (j 0) k)) (fun k => raw (ix2 (j 0) k)) (cn (ix2 (j 0) (0 : Fin 1)))
    (fun k q => W2 (ix2 k q)) b2 (fun k r => W3 (ix2 k r)) b3 (fun r q => W4 (ix2 r q)) b4 g1 be1 g2 be2 (j 1)

theorem nodeArr_apply {n : ℕ} (h raw : Arr2 n 128) (cn : Arr2 n 1) (W2 : Arr2 128 128) (b2 : Fin 128 → EReal)
    (W3 : Arr2 128 512) (b3 : Fin 512 → EReal) (W4 : Arr2 512 128) (b4 g1 be1 g2 be2 : Fin 128 → EReal)
    (p : Fin n) (q : Fin 128) :
    nodeArr h raw cn W2 b2 W3 b3 W4 b4 g1 be1 g2 be2 (ix2 p q)
      = nodeRow (fun k => h (ix2 p k)) (fun k => raw (ix2 p k)) (cn (ix2 p (0 : Fin 1)))
          (fun k q => W2 (ix2 k q)) b2 (fun k r => W3 (ix2 k r)) b3 (fun r q => W4 (ix2 r q)) b4 g1 be1 g2 be2 q := rfl

end Cert.Spec

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.KBody0.lean ====
/-
  The hyperedge kernel's stored block is the hyperedge stage of its loaded blocks: at row p and column q the body
  computes ((raw · ch) W1 + b1) · ch, the matrix product into a zero accumulator being the plain sum over the
  contracted coordinate, the two changes of float format the identity on extended reals, the column of scales read
  at the row and the bias row read at the column.
-/
import proofs.«136505_j38603166057018_2_alg».proof.Proof.Gen.KernelIdeal.Skeleton
import proofs.«136505_j38603166057018_2_alg».proof.Proof.Spec
import proofs.«136505_j38603166057018_2_alg».proof.Proof.LibLayout
import proofs.«136505_j38603166057018_2_alg».proof.Proof.LibPlainDot
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- A column of n values, broadcast along 128 columns, reads the column's entry for the row. -/
theorem colBcast {n : ℕ} (x : (⟨2, ![n, 1]⟩ : Shape).Idx → EReal)
    (hs : (⟨2, ![n, 1]⟩ : Shape).ShapeCasts ⟨2, ![n, 1]⟩) (hb : (⟨2, ![n, 1]⟩ : Shape).Broadcasts ⟨2, ![n, 128]⟩)
    (p : Fin n) (q : Fin 128) :
    broadcastTo ⟨2, ![n, 128]⟩ (shapeCast ⟨2, ![n, 1]⟩ x hs) hb (ix2 p q) = x (ix2 p (0 : Fin 1)) := by
  rw [Cert.LibLayout.broadcastTo_a1_ab_apply, shapeCast_self]

/-- One row of c values, broadcast over n rows, reads the row's entry for the column. -/
theorem rowBcast {n c : ℕ} (x : (⟨2, ![1, c]⟩ : Shape).Idx → EReal)
    (hs : (⟨2, ![1, c]⟩ : Shape).ShapeCasts ⟨2, ![1, c]⟩) (hb : (⟨2, ![1, c]⟩ : Shape).Broadcasts ⟨2, ![n, c]⟩)
    (p : Fin n) (q : Fin c) :
    broadcastTo ⟨2, ![n, c]⟩ (shapeCast ⟨2, ![1, c]⟩ x hs) hb (ix2 p q) = x (ix2 (0 : Fin 1) q) := by
  rw [broadcastTo_1b_ab_apply, shapeCast_self]

theorem hyper_pay (v0 : Vec Ideal S4000x1 .f32) (v2 : Vec Ideal S4000x128 .f32) (v7 : Vec Ideal S128x128 .f32)
    (v10 : Vec Ideal S1x128 .f32) :
    k0_pay1 (F := Ideal) v0 v2 v7 v10
      = Cert.Spec.hyperArr (n := 4000) v2 v0 v7 (fun q => v10 (ix2 (0 : Fin 1) q)) := by
  funext j
  obtain ⟨p, q, rfl⟩ : ∃ (p : Fin 4000) (q : Fin 128), j = ix2 p q := ⟨j 0, j 1, eq_ix2 j⟩
  rw [Cert.Spec.hyperArr_apply]
  unfold k0_pay1 Cert.Spec.hyperRow Cert.Spec.lin
  rw [mulf_apply, addf_apply, colBcast, rowBcast]
  rw [show (matmul dot_S4000x128_S128x128_S4000x128_1_0_0_1_n_n none
          (truncf FTy.bf16
            (mulf (shapeCast S4000x128 v2 shapeCasts_S4000x128_S4000x128)
              (broadcastTo S4000x128 (shapeCast S4000x1 v0 shapeCasts_S4000x1_S4000x1) broadcasts_S4000x1_S4000x128))
            bitsLt_bf16_f32)
          (truncf FTy.bf16 v7 bitsLt_bf16_f32) (constant S4000x128 FTy.f32 0#32)) (ix2 p q) = _ from
    Cert.LibPlainDot.matmul_zero_plain dot_S4000x128_S128x128_S4000x128_1_0_0_1_n_n rfl rfl
      (fun _ _ => rfl) (fun _ _ => rfl) (fun _ _ => rfl) (fun _ _ => rfl) none _ _ p q]
  simp only [truncf_apply, mulf_apply, shapeCast_self, Cert.LibLayout.broadcastTo_a1_ab_apply]

end Cert.KernelIdeal.Body

end
-- ==== Proof.KBlocks0.lean ====
/-
  The hyperedge region's output array after the run is the hyperedge stage of the arrays the region was entered with.
  Grid point t writes back rows 4000 t .. 4000 t + 3999; what it writes is the stage applied to the blocks it fetched,
  which are those same rows of the raw messages and of the scale column, the whole weight matrix and the whole bias
  row; since each output row depends only on its own input rows, the block written is the block of the whole-array
  function, and the five blocks cover the array.
-/
import proofs.«136505_j38603166057018_2_alg».proof.Proof.Gen.KernelIdeal.Frame
import proofs.«136505_j38603166057018_2_alg».proof.Proof.KBody0

set_option maxRecDepth 16384

noncomputable section

namespace Cert.KernelIdeal.HyperBlocks

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five grid points: the row-blocked windows sit at block t, column block 0; the
    weight matrix and the bias row are fetched whole. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 5 :=
  (by decide +kernel : ∀ t : Fin grid0.N, _)

theorem flushed_eq (c : Dev nD) (t : Fin cfg0.N) :
    (dat0 (F := Ideal) V c).flushed 4 t = ((cfg0.win 4).blk t).view.read (Elt Ideal)
      (Cert.Spec.hyperArr (n := 20000) (V c main_v26) (V c main_v14) (V c main_arg3) (fun q => V c main_v27 (ix2 (0 : Fin 1) q))) := by
  show (cfg0.win 4).cut (grid0.coords t) ((dat0 V c).after 4 t) = _
  rw [after0_4]
  unfold out0_4
  rw [View.canon_unit_zero hz]
  simp only [View.ld_unit_zero (S := S4000x1) hz, View.ld_unit_zero (S := S4000x128) hz, View.ld_unit_zero (S := S128x128) hz, View.ld_unit_zero (S := S1x128) hz]
  rw [Cert.KernelIdeal.Body.hyper_pay]
  funext y
  obtain ⟨p, q, rfl⟩ : ∃ (p : Fin 4000) (q : Fin 128), y = ix2 p q := ⟨y 0, y 1, eq_ix2 y⟩
  obtain ⟨e00, e01, e10, e11, e20, e21, e30, e31, e40, e41, ht⟩ := idx_facts t
  have hP : t.val * 4000 + p.val < 20000 := by omega
  have e4 : ((cfg0.win 4).blk t).view.emb (ix2 p q) = ix2 (⟨t.val * 4000 + p.val, hP⟩ : Fin 20000) q := by
    funext a; apply Fin.ext
    match a with
    | ⟨0, _⟩ => show win0_4.index t (0 : Fin 2) * 4000 + 1 * p.val = t.val * 4000 + p.val; omega
    | ⟨1, _⟩ => show win0_4.index t (1 : Fin 2) * 128 + 1 * q.val = q.val; omega
  have r0 : ∀ k : Fin 128, iblk0 V c 0 t (ix2 p k) = V c main_v26 (ix2 (⟨t.val * 4000 + p.val, hP⟩ : Fin 20000) k) := fun k => by
    show V c main_v26 (((cfg0.win 0).blk t).view.emb (ix2 p k)) = _
    refine congrArg (V c main_v26) ?_
    funext a; apply Fin.ext
    match a with
    | ⟨0, _⟩ => show win0_0.index t (0 : Fin 2) * 4000 + 1 * p.val = t.val * 4000 + p.val; omega
    | ⟨1, _⟩ => show win0_0.index t (1 : Fin 2) * 128 + 1 * k.val = k.val; omega
  have r1 : iblk0 V c 1 t (ix2 p (0 : Fin 1)) = V c main_v14 (ix2 (⟨t.val * 4000 + p.val, hP⟩ : Fin 20000) (0 : Fin 1)) := by
    show V c main_v14 (((cfg0.win 1).blk t).view.emb (ix2 p (0 : Fin 1))) = _
    refine congrArg (V c main_v14) ?_
    funext a; apply Fin.ext
    match a with
    | ⟨0, _⟩ => show win0_1.index t (0 : Fin 2) * 4000 + 1 * p.val = t.val * 4000 + p.val; omega
    | ⟨1, _⟩ => show win0_1.index t (1 : Fin 2) * 1 + 1 * 0 = 0; omega
  have r2 : ∀ (k q : Fin 128), iblk0 V c 2 t (ix2 k q) = V c main_arg3 (ix2 k q) := fun k q => by
    show V c main_arg3 (((cfg0.win 2).blk t).view.emb (ix2 k q)) = _
    refine congrArg (V c main_arg3) ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  have r3 : ∀ (q : Fin 128), iblk0 V c 3 t (ix2 (0 : Fin 1) q) = V c main_v27 (ix2 (0 : Fin 1) q) := fun q => by
    show V c main_v27 (((cfg0.win 3).blk t).view.emb (ix2 (0 : Fin 1) q)) = _
    refine congrArg (V c main_v27) ?_
    funext a; apply Fin.ext
    match a with
    | ⟨0, _⟩ => show win0_3.index t (0 : Fin 2) * 1 + 1 * 0 = 0; omega
    | ⟨1, _⟩ => show win0_3.index t (1 : Fin 2) * 128 + 1 * q.val = q.val; omega
  show Cert.Spec.hyperArr (n := 4000) (iblk0 V c 0 t) (iblk0 V c 1 t) (iblk0 V c 2 t) (fun q => iblk0 V c 3 t (ix2 (0 : Fin 1) q)) (ix2 p q)
    = Cert.Spec.hyperArr (n := 20000) (V c main_v26) (V c main_v14) (V c main_arg3) (fun q => V c main_v27 (ix2 (0 : Fin 1) q))
        (((cfg0.win 4).blk t).view.emb (ix2 p q))
  rw [e4, Cert.Spec.hyperArr_apply, Cert.Spec.hyperArr_apply]
  simp only [r0, r1, r2, r3]

/-- A row index lies in point t's block iff it is one of the block's 4000 rows. -/
theorem mem_blk (t : Fin cfg0.N) (i : S20000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v28).slice (win0_4.rect t)).set ↔ _
  rw [View.set_slice_whole, Rect.mem_set_unit]
  exact Iff.rfl

/-- The point whose block holds row r is r / 4000. -/
theorem cover (i : S20000x128.Idx) : ∃ t : Fin cfg0.N, (cfg0.win 4).flush t = true ∧ i ∈ ((cfg0.win 4).blk t).view.set := by
  have hi0 : (i 0).val < 20000 := (i 0).isLt
  have hi1 : (i 1).val < 128 := (i 1).isLt
  have hN : cfg0.N = 5 := N_0
  refine ⟨⟨(i 0).val / 4000, by rw [hN]; omega⟩, flush0_4 _, ?_⟩
  rw [mem_blk]
  obtain ⟨e00, e01, e10, e11, e20, e21, e30, e31, e40, e41, ht⟩ := idx_facts ⟨(i 0).val / 4000, by rw [hN]; omega⟩
  intro a
  match a with
  | ⟨0, _⟩ => show win0_4.index _ (0 : Fin 2) * 4000 ≤ (i 0).val ∧ (i 0).val < win0_4.index _ (0 : Fin 2) * 4000 + 4000; rw [e40]; show (i 0).val / 4000 * 4000 ≤ (i 0).val ∧ (i 0).val < (i 0).val / 4000 * 4000 + 4000; omega
  | ⟨1, _⟩ => show win0_4.index _ (1 : Fin 2) * 128 ≤ (i 1).val ∧ (i 1).val < win0_4.index _ (1 : Fin 2) * 128 + 128; rw [e41]; omega

/-- The array the hyperedge region leaves: the hyperedge stage of its entry arrays. -/
theorem final (c : Dev nD) :
    (dat0 (F := Ideal) V c).arrAt 4 cfg0.N
      = Cert.Spec.hyperArr (n := 20000) (V c main_v26) (V c main_v14) (V c main_arg3) (fun q => V c main_v27 (ix2 (0 : Fin 1) q)) :=
  (dat0 V c).arrAt_eq_of_cover 4 _ (fun t _ => flushed_eq V c t) cover

end Cert.KernelIdeal.HyperBlocks

end
-- ==== Proof.RefHyper.lean ====
/-
  The hyperedge stage of the reference, read one entry at a time.

  The reference scales the aggregated messages of a hyperedge by the hyperedge's degree scale, multiplies the scaled row
  by the 128 × 128 weight matrix, adds the bias, and scales by the degree scale again. Read at row `p` and column `q`
  this is `((∑ k, raw p k · ch p · W k q) + b q) · ch p`, which is the row function `Cert.Spec.hyperRow` of row `p` of
  the aggregated messages and of the entry of the degree scale for `p`, taken at `q`. The aggregated messages and the
  degree scales enter as given arrays.
-/
import proofs.«136505_j38603166057018_2_alg».proof.Proof.Spec
import proofs.«136505_j38603166057018_2_alg».proof.Proof.Gen.ReferenceIdeal.Read

noncomputable section

open scoped BigOperators
open Cert.ReferenceIdeal Cert.ReferenceIdeal.Read Idealize.ShloMosaic Idealize.ShloMosaic.ValueIdx

namespace Cert.RefSide

/-! The index maps of the operations, composed, at an index given by its coordinates. -/

/-- The left operand of the product with the weight matrix is read at row `p`, column `k`. -/
theorem lidx29 (p : Fin 20000) (q k : Fin 128) : lidx_main_v29 (ix2 p q) k = ix2 p k :=
  funext fun a => Fin.ext (by match a with | ⟨0, _⟩ => rfl | ⟨1, _⟩ => rfl)
/-- The weight matrix is read at row `k`, column `q`. -/
theorem ridx29 (p : Fin 20000) (q k : Fin 128) : ridx_main_v29 (ix2 p q) k = ix2 k q :=
  funext fun a => Fin.ext (by match a with | ⟨0, _⟩ => rfl | ⟨1, _⟩ => rfl)
/-- The degree scale spread over a row is the row's one entry of the column of scales. -/
theorem idx27 (p : Fin 20000) (k : Fin 128) : idx_main_v27 (ix2 p k) = ix2 p (0 : Fin 1) :=
  funext fun a => Fin.ext (by match a with | ⟨0, _⟩ => rfl | ⟨1, _⟩ => rfl)
/-- The same for the second scaling. -/
theorem idx33 (p : Fin 20000) (k : Fin 128) : idx_main_v33 (ix2 p k) = ix2 p (0 : Fin 1) :=
  funext fun a => Fin.ext (by match a with | ⟨0, _⟩ => rfl | ⟨1, _⟩ => rfl)
/-- The bias spread over the rows is its entry `q`. -/
theorem idx30_31 (p : Fin 20000) (q : Fin 128) : idx_main_v30 (idx_main_v31 (ix2 p q)) = ix1 q :=
  funext fun a => Fin.ext (by match a with | ⟨0, _⟩ => rfl)

/-- The hyperedge stage of the reference is the row function `hyperRow` applied row by row to the aggregated messages
    and the degree scales. -/
theorem hyper_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) :
    val_main_v34 (F := Ideal) x0 x1 x2 x3 x4
      = Cert.Spec.hyperArr (val_main_v26 (F := Ideal) x0 x1 x2) (val_main_v14 (F := Ideal) x2) x3 (fun q => x4 (ix1 q)) := by
  funext j
  obtain ⟨p, q, rfl⟩ : ∃ (p : Fin 20000) (q : Fin 128), j = ix2 p q := ⟨j 0, j 1, eq_ix2 j⟩
  rw [Cert.Spec.hyperArr_apply]
  rw [val_main_v34_apply, val_main_v32_apply, val_main_v29_apply, val_main_v31_apply, val_main_v30_apply, val_main_v33_apply]
  simp -implicitDefEqProofs only [val_main_v28_apply, val_main_v27_apply, lidx29, ridx29, idx27, idx33, idx30_31,
    Ideal.mulf_def, Ideal.addf_def]
  unfold Cert.Spec.hyperRow Cert.Spec.lin
  with_reducible rfl

end Cert.RefSide

end
-- ==== Proof.KGlue0.lean ====
/-
  What the hyperedge region is entered with, and what it leaves, as functions of the launch arrays. The host operations
  before the region are the ones the reference program applies too, so the aggregated messages, the two degree scales and
  the reshaped bias are the reference's own stages at the launch arrays; the region's output array is then the reference's
  scaled hyperedge features.
-/
import proofs.«136505_j38603166057018_2_alg».proof.Proof.Gen.KernelIdeal.Frame
import proofs.«136505_j38603166057018_2_alg».proof.Proof.Gen.ReferenceIdeal.Read
import proofs.«136505_j38603166057018_2_alg».proof.Proof.KBlocks0
import proofs.«136505_j38603166057018_2_alg».proof.Proof.RefHyper
import Idealize.ShloMosaic.Lib.ValueLayout

set_option maxRecDepth 16384

noncomputable section

namespace Cert.KernelIdeal.Glue

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg)
set_option maxHeartbeats 4000000 in
/-- The messages aggregated on the hyperedges, as the region finds them. -/
theorem entry0_v26 (c : Dev nD) : V1 m ρ c main_v26 = Cert.ReferenceIdeal.Read.val_main_v26 (F := Ideal) (m ((c : Thread nD τ).loc main_arg0)) (m ((c : Thread nD τ).loc main_arg1)) (m ((c : Thread nD τ).loc main_arg2)) := by
  show StableHlo.after hostOps0 (W0 m ρ c) (Proc.devRef .tc main_v26) = _
  after_results_simp
  rfl
set_option maxHeartbeats 4000000 in
/-- The hyperedges' degree scale, a column. -/
theorem entry0_v14 (c : Dev nD) : V1 m ρ c main_v14 = Cert.ReferenceIdeal.Read.val_main_v14 (F := Ideal) (m ((c : Thread nD τ).loc main_arg2)) := by
  show StableHlo.after hostOps0 (W0 m ρ c) (Proc.devRef .tc main_v14) = _
  after_results_simp
  rfl
set_option maxHeartbeats 4000000 in
/-- The nodes' degree scale, a column. -/
theorem entry0_v12 (c : Dev nD) : V1 m ρ c main_v12 = Cert.ReferenceIdeal.Read.val_main_v12 (F := Ideal) (m ((c : Thread nD τ).loc main_arg1)) := by
  show StableHlo.after hostOps0 (W0 m ρ c) (Proc.devRef .tc main_v12) = _
  after_results_simp
  rfl
set_option maxHeartbeats 4000000 in
/-- The first weight matrix is as launched. -/
theorem entry0_arg3 (c : Dev nD) : V1 m ρ c main_arg3 = (m ((c : Thread nD τ).loc main_arg3)) := by
  show StableHlo.after hostOps0 (W0 m ρ c) (Proc.devRef .tc main_arg3) = _
  after_results_simp

set_option maxHeartbeats 4000000 in
/-- The edges' node indices are as launched. -/
theorem entry0_arg1 (c : Dev nD) : V1 m ρ c main_arg1 = (m ((c : Thread nD τ).loc main_arg1)) := by
  show StableHlo.after hostOps0 (W0 m ρ c) (Proc.devRef .tc main_arg1) = _
  after_results_simp

set_option maxHeartbeats 4000000 in
/-- The edges' hyperedge indices are as launched. -/
theorem entry0_arg2 (c : Dev nD) : V1 m ρ c main_arg2 = (m ((c : Thread nD τ).loc main_arg2)) := by
  show StableHlo.after hostOps0 (W0 m ρ c) (Proc.devRef .tc main_arg2) = _
  after_results_simp

set_option maxHeartbeats 4000000 in
/-- The bias b1 reshaped to one row reads the bias at the column. -/
theorem entry0_v27 (c : Dev nD) (q : Fin 128) :
    V1 m ρ c main_v27 (ix2 (0 : Fin 1) q) = (m ((c : Thread nD τ).loc main_arg4)) (ix1 q) := by
  show StableHlo.after hostOps0 (W0 m ρ c) (Proc.devRef .tc main_v27) (ix2 (0 : Fin 1) q) = _
  after_results_simp
  exact shapeCast_a_1a_apply _ _ (0 : Fin 1) q

/-- THE HYPEREDGE REGION'S OUTPUT: the reference's hyperedge features after their second scaling. -/
theorem hyper_out (c : Dev nD) :
    W2 m ρ c (Proc.devRef .tc main_v28) = Cert.ReferenceIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ?_
  rw [Cert.KernelIdeal.HyperBlocks.final (V1 m ρ) c, Cert.RefSide.hyper_eq, entry0_v26, entry0_v14, entry0_arg3]
  exact congrArg (Cert.Spec.hyperArr (n := 20000) _ _ _) (funext fun q => entry0_v27 m ρ c q)

end Cert.KernelIdeal.Glue

end
-- ==== Proof.KBody1.lean ====
/-
  The node kernel's stored block is the node stage of its loaded blocks. The body is read in three steps: the rows
  x = h + (raw · cn) W2 + b2 and their normalisation scaled by g1; then h1 = that + be1, the feed-forward rows
  y = h1 + relu(h1 W3 + b3) W4 + b4 and their normalisation; then the last scale and shift. A lane sum is the plain sum
  over the row, a matrix product into a zero accumulator the plain sum over the contracted coordinate, and every
  column or row that the body broadcasts is read back at the row or column it came from.
-/
import proofs.«136505_j38603166057018_2_alg».proof.Proof.Gen.KernelIdeal.Skeleton
import proofs.«136505_j38603166057018_2_alg».proof.Proof.Spec
import proofs.«136505_j38603166057018_2_alg».proof.Proof.LibLayout
import proofs.«136505_j38603166057018_2_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.NodeBody

open Cert.KernelIdeal Cert.KernelIdeal.Gen Idealize.ShloMosaic Idealize.ShloMosaic.ValueIdx

/-- A lane sum of a block of n rows of 128, read at row p: the sum of the row. -/
theorem rowSum {n : ℕ} (X : FVec Ideal ⟨2, ![n, 128]⟩ .f32) (h : Shape.Reduces ⟨2, ![n, 128]⟩ [1] ⟨1, ![n]⟩)
    (hφ : FKind.Formats .f32) (hacc : (0x00000000#32 : BitVec 32) = 0x00000000#32) (p : Fin n) :
    multiReduction .add [1] ⟨1, ![n]⟩ X 0x00000000#32 h hφ hacc (ix1 p) = ∑ k : Fin 128, X (ix2 p k) := by
  refine (Ideal.multiReduction_add_single X _ h hφ hacc (ix1 p)).trans ?_
  refine Finset.sum_congr rfl fun k _ => congrArg X ?_
  funext a
  match a with
  | ⟨0, _⟩ => rfl
  | ⟨1, _⟩ => rfl

/-- The mean column of a block, broadcast back over the columns, reads the mean of the row. -/
theorem meanBcast (X : FVec Ideal S2000x128 .f32) (p : Fin 2000) (q : Fin 128) :
    broadcastTo S2000x128 (divf (shapeCast S2000x1 (multiReduction .add [1] S2000 X 0x00000000#32 reduces_S2000x128_S2000 (.inl rfl) rfl)
        shapeCasts_S2000_S2000x1) (broadcast S2000x1 (Scalar.ofBits .f32 0x43000000#32))) broadcasts_S2000x1_S2000x128 (ix2 p q)
      = Cert.Spec.mean (fun k => X (ix2 p k)) := by
  rw [Cert.LibLayout.broadcastTo_a1_ab_apply, divf_apply, Cert.LibLayout.shapeCast_a_a1_apply, rowSum]
  rfl

/-- A row's deviation from its mean times the inverse root of its mean squared deviation plus the small constant:
    layer normalisation before its scale and shift. -/
def normRow (x : Fin 128 → EReal) (q : Fin 128) : EReal :=
  (x q - Cert.Spec.mean x) * Ideal.rsqrt (Cert.Spec.mean (fun k => (x k - Cert.Spec.mean x) * (x k - Cert.Spec.mean x))
    + Ideal.ofBits .f32 0x3727C5AC#32)

theorem layerNorm_eq (x g be : Fin 128 → EReal) (q : Fin 128) :
    Cert.Spec.layerNorm x g be q = normRow x q * g q + be q := rfl

/-- The vector inverse root, entry by entry. -/
theorem rsqrt_apply' {s : Shape} (v : FVec Ideal s .f32) (i : s.Idx) : rsqrt v i = Ideal.rsqrt (v i) := rfl

/-- The normalised rows without scale and shift, as the body computes them from a block X of rows: at (p, q) the
    deviation of X's entry from its row's mean times the inverse root of the row's mean squared deviation plus the
    small constant. -/
theorem lnCore_apply (X : FVec Ideal S2000x128 .f32) (p : Fin 2000) (q : Fin 128) :
    mulf
      (subf X (broadcastTo S2000x128 (divf (shapeCast S2000x1 (multiReduction .add [1] S2000 X 0x00000000#32 reduces_S2000x128_S2000 (.inl rfl) rfl)
        shapeCasts_S2000_S2000x1) (broadcast S2000x1 (Scalar.ofBits .f32 0x43000000#32))) broadcasts_S2000x1_S2000x128))
      (broadcastTo S2000x128
        (rsqrt (addf
          (divf (shapeCast S2000x1 (multiReduction .add [1] S2000
              (mulf
                (subf X (broadcastTo S2000x128 (divf (shapeCast S2000x1 (multiReduction .add [1] S2000 X 0x00000000#32 reduces_S2000x128_S2000 (.inl rfl) rfl)
                  shapeCasts_S2000_S2000x1) (broadcast S2000x1 (Scalar.ofBits .f32 0x43000000#32))) broadcasts_S2000x1_S2000x128))
                (subf X (broadcastTo S2000x128 (divf (shapeCast S2000x1 (multiReduction .add [1] S2000 X 0x00000000#32 reduces_S2000x128_S2000 (.inl rfl) rfl)
                  shapeCasts_S2000_S2000x1) (broadcast S2000x1 (Scalar.ofBits .f32 0x43000000#32))) broadcasts_S2000x1_S2000x128)))
              0x00000000#32 reduces_S2000x128_S2000 (.inl rfl) rfl) shapeCasts_S2000_S2000x1)
            (broadcast S2000x1 (Scalar.ofBits .f32 0x43000000#32)))
          (broadcast S2000x1 (Scalar.ofBits .f32 0x3727C5AC#32))))
        broadcasts_S2000x1_S2000x128) (ix2 p q)
      = normRow (fun k => X (ix2 p k)) q := by
  unfold normRow
  rw [mulf_apply, subf_apply, meanBcast, Cert.LibLayout.broadcastTo_a1_ab_apply]
  refine congrArg (fun z => (X (ix2 p q) - Cert.Spec.mean (fun k => X (ix2 p k))) * z) ?_
  rw [rsqrt_apply', addf_apply, divf_apply, Cert.LibLayout.shapeCast_a_a1_apply, rowSum]
  refine congrArg (fun z => Ideal.rsqrt (Ideal.div z (Ideal.ofBits .f32 0x43000000#32) + Ideal.ofBits .f32 0x3727C5AC#32))
    (Finset.sum_congr rfl fun k _ => ?_)
  rw [mulf_apply, subf_apply, meanBcast]

/-- A column of n values, broadcast along 128 columns, reads the column's entry for the row. -/
theorem colBcast {n : ℕ} (x : (⟨2, ![n, 1]⟩ : Shape).Idx → EReal)
    (hs : (⟨2, ![n, 1]⟩ : Shape).ShapeCasts ⟨2, ![n, 1]⟩) (hb : (⟨2, ![n, 1]⟩ : Shape).Broadcasts ⟨2, ![n, 128]⟩)
    (p : Fin n) (q : Fin 128) :
    broadcastTo ⟨2, ![n, 128]⟩ (shapeCast ⟨2, ![n, 1]⟩ x hs) hb (ix2 p q) = x (ix2 p (0 : Fin 1)) := by
  rw [Cert.LibLayout.broadcastTo_a1_ab_apply, shapeCast_self]

/-- One row of c values, cast to itself and broadcast over n rows, reads the row's entry for the column. -/
theorem rowBcast {n c : ℕ} (x : (⟨2, ![1, c]⟩ : Shape).Idx → EReal)
    (hs : (⟨2, ![1, c]⟩ : Shape).ShapeCasts ⟨2, ![1, c]⟩) (hb : (⟨2, ![1, c]⟩ : Shape).Broadcasts ⟨2, ![n, c]⟩)
    (p : Fin n) (q : Fin c) :
    broadcastTo ⟨2, ![n, c]⟩ (shapeCast ⟨2, ![1, c]⟩ x hs) hb (ix2 p q) = x (ix2 (0 : Fin 1) q) := by
  rw [broadcastTo_1b_ab_apply, shapeCast_self]

/-- The three matrix products of the body into a zero accumulator, read at an entry: plain sums. -/
theorem mmA (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ a : Fin 128, l (ix2 p a) * r (ix2 a q) :=
  Cert.LibPlainDot.matmul_zero_plain dot_S2000x128_S128x128_S2000x128_1_0_0_1_n_n rfl rfl
    (fun _ _ => rfl) (fun _ _ => rfl) (fun _ _ => rfl) (fun _ _ => rfl) none l r p q

theorem mmB (l : FVec Ideal S2000x128 .bf16) (r : FVec Ideal S128x512 .bf16) (p : Fin 2000) (q : Fin 512) :
    matmul dot_S2000x128_S128x512_S2000x512_1_0_0_1_n_n none l r (constant S2000x512 .f32 0x00000000#32) (ix2 p q)
      = ∑ a : Fin 128, l (ix2 p a) * r (ix2 a q) :=
  Cert.LibPlainDot.matmul_zero_plain dot_S2000x128_S128x512_S2000x512_1_0_0_1_n_n rfl rfl
    (fun _ _ => rfl) (fun _ _ => rfl) (fun _ _ => rfl) (fun _ _ => rfl) none l r p q

theorem mmC (l : FVec Ideal S2000x512 .bf16) (r : FVec Ideal S512x128 .bf16) (p : Fin 2000) (q : Fin 128) :
    matmul dot_S2000x512_S512x128_S2000x128_1_0_0_1_n_n none l r (constant S2000x128 .f32 0x00000000#32) (ix2 p q)
      = ∑ a : Fin 512, l (ix2 p a) * r (ix2 a q) :=
  Cert.LibPlainDot.matmul_zero_plain dot_S2000x512_S512x128_S2000x128_1_0_0_1_n_n rfl rfl
    (fun _ _ => rfl) (fun _ _ => rfl) (fun _ _ => rfl) (fun _ _ => rfl) none l r p q

/-- The first payload at (p, q): the normalised row of x = h + (raw · cn) W2 + b2, scaled by g1. -/
theorem pay2_apply (v0 : Vec Ideal S2000x128 .f32) (v2 : Vec Ideal S2000x1 .f32) (v7 : Vec Ideal S128x128 .f32)
    (v10 : Vec Ideal S1x128 .f32) (v14 : Vec Ideal S2000x128 .f32) (v34 : Vec Ideal S1x128 .f32) (p : Fin 2000) (q : Fin 128) :
    k1_pay2 (F := Ideal) v0 v2 v7 v10 v14 v34 (ix2 p q)
      = normRow (fun k => v14 (ix2 p k) + Cert.Spec.lin (fun a => v0 (ix2 p a) * v2 (ix2 p (0 : Fin 1)))
          (fun a k => v7 (ix2 a k)) (fun k => v10 (ix2 (0 : Fin 1) k)) k) q * v34 (ix2 (0 : Fin 1) q) := by
  unfold k1_pay2
  rw [mulf_apply, rowBcast, lnCore_apply]
  refine congrArg (fun x => normRow x q * v34 (ix2 (0 : Fin 1) q)) (funext fun k => ?_)
  rw [addf_apply, addf_apply, rowBcast, mmA]
  simp only [truncf_apply, mulf_apply, shapeCast_self, Cert.LibLayout.broadcastTo_a1_ab_apply]
  rfl

/-- The second payload at (p, q): the normalised row of y = h1 + relu(h1 W3 + b3) W4 + b4, where h1 is the first
    payload's row plus be1. -/
theorem pay3_apply (v37 : FVec Ideal S2000x128 .f32) (v38 : Vec Ideal S1x128 .f32) (v43 : Vec Ideal S128x512 .f32)
    (v46 : Vec Ideal S1x512 .f32) (v53 : Vec Ideal S512x128 .f32) (v56 : Vec Ideal S1x128 .f32) (p : Fin 2000) (q : Fin 128) :
    k1_pay3 (F := Ideal) v37 v38 v43 v46 v53 v56 (ix2 p q)
      = normRow (fun k => (v37 (ix2 p k) + v38 (ix2 (0 : Fin 1) k))
          + Cert.Spec.lin (fun r => max (Cert.Spec.lin (fun b => v37 (ix2 p b) + v38 (ix2 (0 : Fin 1) b))
              (fun b r => v43 (ix2 b r)) (fun r => v46 (ix2 (0 : Fin 1) r)) r) (Ideal.ofBits .f32 0x00000000#32))
            (fun r k => v53 (ix2 r k)) (fun k => v56 (ix2 (0 : Fin 1) k)) k) q := by
  unfold k1_pay3
  rw [lnCore_apply]
  refine congrArg (fun x => normRow x q) (funext fun k => ?_)
  simp only [addf_apply, rowBcast, mmC, mmB, truncf_apply, maximumf_apply, broadcast_apply]
  rfl

/-- THE NODE BODY: the stored block is the node stage of the loaded blocks. -/
theorem node_pay (x0 x1 : Vec Ideal S2000x128 .f32) (x2 : Vec Ideal S2000x1 .f32) (x3 : Vec Ideal S128x128 .f32)
    (x4 : Vec Ideal S1x128 .f32) (x5 : Vec Ideal S128x512 .f32) (x6 : Vec Ideal S1x512 .f32) (x7 : Vec Ideal S512x128 .f32)
    (x8 x9 x10 x11 x12 : Vec Ideal S1x128 .f32) :
    k1_pay1 (F := Ideal) (k1_pay3 (k1_pay2 x1 x2 x3 x4 x0 x9) x10 x5 x6 x7 x8) (k1_pay4 x11) x12
      = Cert.Spec.nodeArr (n := 2000) x0 x1 x2 x3 (fun q => x4 (ix2 (0 : Fin 1) q)) x5 (fun r => x6 (ix2 (0 : Fin 1) r)) x7
          (fun q => x8 (ix2 (0 : Fin 1) q)) (fun q => x9 (ix2 (0 : Fin 1) q)) (fun q => x10 (ix2 (0 : Fin 1) q))
          (fun q => x11 (ix2 (0 : Fin 1) q)) (fun q => x12 (ix2 (0 : Fin 1) q)) := by
  funext j
  obtain ⟨p, q, rfl⟩ : ∃ (p : Fin 2000) (q : Fin 128), j = ix2 p q := ⟨j 0, j 1, eq_ix2 j⟩
  rw [Cert.Spec.nodeArr_apply]
  unfold k1_pay1 k1_pay4
  rw [addf_apply, mulf_apply]
  simp only [rowBcast, pay3_apply, pay2_apply]
  rfl

end Cert.KernelIdeal.NodeBody

end
-- ==== Proof.KBlocks1.lean ====
/-
  The node region's output array after the run is the node stage of the arrays the region was entered with. Grid point
  t writes back rows 2000 t .. 2000 t + 1999; what it writes is the stage applied to the blocks it fetched: those same
  rows of h, of the aggregated messages and of the scale column, and the weight matrices, bias rows, scales and shifts
  whole. Each output row depends only on its own input rows, so the block written is the block of the whole-array
  function, and the fifty blocks cover the array.
-/
import proofs.«136505_j38603166057018_2_alg».proof.Proof.Gen.KernelIdeal.Frame
import proofs.«136505_j38603166057018_2_alg».proof.Proof.KBody1

set_option maxRecDepth 16384

noncomputable section

namespace Cert.KernelIdeal.NodeBlocks

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the fifty grid points: the three row-blocked inputs and the output sit at block t,
    column block 0; every other input is fetched whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = t.val ∧ win1_13.index t (1 : Fin 2) = 0 ∧ t.val < 50 :=
  (by decide +kernel : ∀ t : Fin grid1.N, _)

set_option maxHeartbeats 4000000 in
theorem flushed_eq (c : Dev nD) (t : Fin cfg1.N) :
    (dat1 (F := Ideal) V c).flushed 13 t = ((cfg1.win 13).blk t).view.read (Elt Ideal)
      (Cert.Spec.nodeArr (n := 100000) (V c main_arg0) (V c main_v38) (V c main_v12) (V c main_arg5) (fun q => V c main_v39 (ix2 (0 : Fin 1) q)) (V c main_arg7) (fun q => V c main_v40 (ix2 (0 : Fin 1) q)) (V c main_arg9) (fun q => V c main_v41 (ix2 (0 : Fin 1) q)) (fun q => V c main_v42 (ix2 (0 : Fin 1) q)) (fun q => V c main_v43 (ix2 (0 : Fin 1) q)) (fun q => V c main_v44 (ix2 (0 : Fin 1) q)) (fun q => V c main_v45 (ix2 (0 : Fin 1) q))) := by
  show (cfg1.win 13).cut (grid1.coords t) ((dat1 V c).after 13 t) = _
  rw [after1_13]
  unfold out1_13
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S128x512) hz, View.ld_unit_zero (S := S1x512) hz,
    View.ld_unit_zero (S := S512x128) hz]
  rw [Cert.KernelIdeal.NodeBody.node_pay]
  funext y
  obtain ⟨p, q, rfl⟩ : ∃ (p : Fin 2000) (q : Fin 128), y = ix2 p q := ⟨y 0, y 1, eq_ix2 y⟩
  obtain ⟨e0a, e0b, e1a, e1b, e2a, e2b, e3a, e3b, e4a, e4b, e5a, e5b, e6a, e6b, e7a, e7b, e8a, e8b, e9a, e9b, e10a, e10b, e11a, e11b, e12a, e12b, e13a, e13b, ht⟩ := idx_facts t
  have hP : t.val * 2000 + p.val < 100000 := by omega
  have e13 : ((cfg1.win 13).blk t).view.emb (ix2 p q) = ix2 (⟨t.val * 2000 + p.val, hP⟩ : Fin 100000) q := by
    funext a; apply Fin.ext
    match a with
    | ⟨0, _⟩ => show win1_13.index t (0 : Fin 2) * 2000 + 1 * p.val = t.val * 2000 + p.val; omega
    | ⟨1, _⟩ => show win1_13.index t (1 : Fin 2) * 128 + 1 * q.val = q.val; omega
  have r0 : ∀ k : Fin 128, iblk1 V c 0 t (ix2 p k) = V c main_arg0 (ix2 (⟨t.val * 2000 + p.val, hP⟩ : Fin 100000) k) := fun k => by
    show V c main_arg0 (((cfg1.win 0).blk t).view.emb (ix2 p k)) = _
    refine congrArg (V c main_arg0) ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  have r1 : ∀ k : Fin 128, iblk1 V c 1 t (ix2 p k) = V c main_v38 (ix2 (⟨t.val * 2000 + p.val, hP⟩ : Fin 100000) k) := fun k => by
    show V c main_v38 (((cfg1.win 1).blk t).view.emb (ix2 p k)) = _
    refine congrArg (V c main_v38) ?_
    funext a; apply Fin.ext
    match a with
    | ⟨0, _⟩ => show win1_1.index t (0 : Fin 2) * 2000 + 1 * p.val = t.val * 2000 + p.val; omega
    | ⟨1, _⟩ => show win1_1.index t (1 : Fin 2) * 128 + 1 * k.val = k.val; omega
  have r2 : iblk1 V c 2 t (ix2 p (0 : Fin 1)) = V c main_v12 (ix2 (⟨t.val * 2000 + p.val, hP⟩ : Fin 100000) (0 : Fin 1)) := by
    show V c main_v12 (((cfg1.win 2).blk t).view.emb (ix2 p (0 : Fin 1))) = _
    refine congrArg (V c main_v12) ?_
    funext a; apply Fin.ext
    match a with
    | ⟨0, _⟩ => show win1_2.index t (0 : Fin 2) * 2000 + 1 * p.val = t.val * 2000 + p.val; omega
    | ⟨1, _⟩ => show win1_2.index t (1 : Fin 2) * 1 + 1 * 0 = 0; omega
  have r3 : ∀ (k : Fin 128) (q : Fin 128), iblk1 V c 3 t (ix2 k q) = V c main_arg5 (ix2 k q) := fun k q => by
    show V c main_arg5 (((cfg1.win 3).blk t).view.emb (ix2 k q)) = _
    refine congrArg (V c main_arg5) ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  have r4 : ∀ (q : Fin 128), iblk1 V c 4 t (ix2 (0 : Fin 1) q) = V c main_v39 (ix2 (0 : Fin 1) q) := fun q => by
    show V c main_v39 (((cfg1.win 4).blk t).view.emb (ix2 (0 : Fin 1) q)) = _
    refine congrArg (V c main_v39) ?_
    funext a; apply Fin.ext
    match a with
    | ⟨0, _⟩ => show win1_4.index t (0 : Fin 2) * 1 + 1 * 0 = 0; omega
    | ⟨1, _⟩ => show win1_4.index t (1 : Fin 2) * 128 + 1 * q.val = q.val; omega
  have r5 : ∀ (k : Fin 128) (q : Fin 512), iblk1 V c 5 t (ix2 k q) = V c main_arg7 (ix2 k q) := fun k q => by
    show V c main_arg7 (((cfg1.win 5).blk t).view.emb (ix2 k q)) = _
    refine congrArg (V c main_arg7) ?_
    funext a; apply Fin.ext
    match a with
    | ⟨0, _⟩ => show win1_5.index t (0 : Fin 2) * 128 + 1 * k.val = k.val; omega
    | ⟨1, _⟩ => show win1_5.index t (1 : Fin 2) * 512 + 1 * q.val = q.val; omega
  have r6 : ∀ (q : Fin 512), iblk1 V c 6 t (ix2 (0 : Fin 1) q) = V c main_v40 (ix2 (0 : Fin 1) q) := fun q => by
    show V c main_v40 (((cfg1.win 6).blk t).view.emb (ix2 (0 : Fin 1) q)) = _
    refine congrArg (V c main_v40) ?_
    funext a; apply Fin.ext
    match a with
    | ⟨0, _⟩ => show win1_6.index t (0 : Fin 2) * 1 + 1 * 0 = 0; omega
    | ⟨1, _⟩ => show win1_6.index t (1 : Fin 2) * 512 + 1 * q.val = q.val; omega
  have r7 : ∀ (k : Fin 512) (q : Fin 128), iblk1 V c 7 t (ix2 k q) = V c main_arg9 (ix2 k q) := fun k q => by
    show V c main_arg9 (((cfg1.win 7).blk t).view.emb (ix2 k q)) = _
    refine congrArg (V c main_arg9) ?_
    funext a; apply Fin.ext
    match a with
    | ⟨0, _⟩ => show win1_7.index t (0 : Fin 2) * 512 + 1 * k.val = k.val; omega
    | ⟨1, _⟩ => show win1_7.index t (1 : Fin 2) * 128 + 1 * q.val = q.val; omega
  have r8 : ∀ (q : Fin 128), iblk1 V c 8 t (ix2 (0 : Fin 1) q) = V c main_v41 (ix2 (0 : Fin 1) q) := fun q => by
    show V c main_v41 (((cfg1.win 8).blk t).view.emb (ix2 (0 : Fin 1) q)) = _
    refine congrArg (V c main_v41) ?_
    funext a; apply Fin.ext
    match a with
    | ⟨0, _⟩ => show win1_8.index t (0 : Fin 2) * 1 + 1 * 0 = 0; omega
    | ⟨1, _⟩ => show win1_8.index t (1 : Fin 2) * 128 + 1 * q.val = q.val; omega
  have r9 : ∀ (q : Fin 128), iblk1 V c 9 t (ix2 (0 : Fin 1) q) = V c main_v42 (ix2 (0 : Fin 1) q) := fun q => by
    show V c main_v42 (((cfg1.win 9).blk t).view.emb (ix2 (0 : Fin 1) q)) = _
    refine congrArg (V c main_v42) ?_
    funext a; apply Fin.ext
    match a with
    | ⟨0, _⟩ => show win1_9.index t (0 : Fin 2) * 1 + 1 * 0 = 0; omega
    | ⟨1, _⟩ => show win1_9.index t (1 : Fin 2) * 128 + 1 * q.val = q.val; omega
  have r10 : ∀ (q : Fin 128), iblk1 V c 10 t (ix2 (0 : Fin 1) q) = V c main_v43 (ix2 (0 : Fin 1) q) := fun q => by
    show V c main_v43 (((cfg1.win 10).blk t).view.emb (ix2 (0 : Fin 1) q)) = _
    refine congrArg (V c main_v43) ?_
    funext a; apply Fin.ext
    match a with
    | ⟨0, _⟩ => show win1_10.index t (0 : Fin 2) * 1 + 1 * 0 = 0; omega
    | ⟨1, _⟩ => show win1_10.index t (1 : Fin 2) * 128 + 1 * q.val = q.val; omega
  have r11 : ∀ (q : Fin 128), iblk1 V c 11 t (ix2 (0 : Fin 1) q) = V c main_v44 (ix2 (0 : Fin 1) q) := fun q => by
    show V c main_v44 (((cfg1.win 11).blk t).view.emb (ix2 (0 : Fin 1) q)) = _
    refine congrArg (V c main_v44) ?_
    funext a; apply Fin.ext
    match a with
    | ⟨0, _⟩ => show win1_11.index t (0 : Fin 2) * 1 + 1 * 0 = 0; omega
    | ⟨1, _⟩ => show win1_11.index t (1 : Fin 2) * 128 + 1 * q.val = q.val; omega
  have r12 : ∀ (q : Fin 128), iblk1 V c 12 t (ix2 (0 : Fin 1) q) = V c main_v45 (ix2 (0 : Fin 1) q) := fun q => by
    show V c main_v45 (((cfg1.win 12).blk t).view.emb (ix2 (0 : Fin 1) q)) = _
    refine congrArg (V c main_v45) ?_
    funext a; apply Fin.ext
    match a with
    | ⟨0, _⟩ => show win1_12.index t (0 : Fin 2) * 1 + 1 * 0 = 0; omega
    | ⟨1, _⟩ => show win1_12.index t (1 : Fin 2) * 128 + 1 * q.val = q.val; omega
  show Cert.Spec.nodeArr (n := 2000) (iblk1 V c 0 t) (iblk1 V c 1 t) (iblk1 V c 2 t) (iblk1 V c 3 t) (fun q => iblk1 V c 4 t (ix2 (0 : Fin 1) q)) (iblk1 V c 5 t) (fun q => iblk1 V c 6 t (ix2 (0 : Fin 1) q)) (iblk1 V c 7 t) (fun q => iblk1 V c 8 t (ix2 (0 : Fin 1) q)) (fun q => iblk1 V c 9 t (ix2 (0 : Fin 1) q)) (fun q => iblk1 V c 10 t (ix2 (0 : Fin 1) q)) (fun q => iblk1 V c 11 t (ix2 (0 : Fin 1) q)) (fun q => iblk1 V c 12 t (ix2 (0 : Fin 1) q)) (ix2 p q)
    = (Cert.Spec.nodeArr (n := 100000) (V c main_arg0) (V c main_v38) (V c main_v12) (V c main_arg5) (fun q => V c main_v39 (ix2 (0 : Fin 1) q)) (V c main_arg7) (fun q => V c main_v40 (ix2 (0 : Fin 1) q)) (V c main_arg9) (fun q => V c main_v41 (ix2 (0 : Fin 1) q)) (fun q => V c main_v42 (ix2 (0 : Fin 1) q)) (fun q => V c main_v43 (ix2 (0 : Fin 1) q)) (fun q => V c main_v44 (ix2 (0 : Fin 1) q)) (fun q => V c main_v45 (ix2 (0 : Fin 1) q)))
        (((cfg1.win 13).blk t).view.emb (ix2 p q))
  rw [e13, Cert.Spec.nodeArr_apply, Cert.Spec.nodeArr_apply]
  simp only [r0, r1, r2, r3, r4, r5, r6, r7, r8, r9, r10, r11, r12]

/-- A row index lies in point t's block iff it is one of the block's 2000 rows. -/
theorem mem_blk (t : Fin cfg1.N) (i : S100000x128.Idx) :
    i ∈ ((cfg1.win 13).blk t).view.set ↔ ∀ a : Fin 2, win1_13.index t a * S2000x128.size a ≤ (i a).val ∧ (i a).val < win1_13.index t a * S2000x128.size a + S2000x128.size a := by
  show i ∈ ((View.whole main_v46).slice (win1_13.rect t)).set ↔ _
  rw [View.set_slice_whole, Rect.mem_set_unit]
  exact Iff.rfl

/-- The point whose block holds row r is r / 2000. -/
theorem cover (i : S100000x128.Idx) : ∃ t : Fin cfg1.N, (cfg1.win 13).flush t = true ∧ i ∈ ((cfg1.win 13).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_13 _, ?_⟩
  rw [mem_blk]
  obtain ⟨e0a, e0b, e1a, e1b, e2a, e2b, e3a, e3b, e4a, e4b, e5a, e5b, e6a, e6b, e7a, e7b, e8a, e8b, e9a, e9b, e10a, e10b, e11a, e11b, e12a, e12b, e13a, e13b, ht⟩ := idx_facts ⟨(i 0).val / 2000, by rw [hN]; omega⟩
  intro a
  match a with
  | ⟨0, _⟩ => show win1_13.index _ (0 : Fin 2) * 2000 ≤ (i 0).val ∧ (i 0).val < win1_13.index _ (0 : Fin 2) * 2000 + 2000; rw [e13a]; show (i 0).val / 2000 * 2000 ≤ (i 0).val ∧ (i 0).val < (i 0).val / 2000 * 2000 + 2000; omega
  | ⟨1, _⟩ => show win1_13.index _ (1 : Fin 2) * 128 ≤ (i 1).val ∧ (i 1).val < win1_13.index _ (1 : Fin 2) * 128 + 128; rw [e13b]; omega

/-- The array the node region leaves: the node stage of its entry arrays. -/
theorem final (c : Dev nD) :
    (dat1 (F := Ideal) V c).arrAt 13 cfg1.N
      = (Cert.Spec.nodeArr (n := 100000) (V c main_arg0) (V c main_v38) (V c main_v12) (V c main_arg5) (fun q => V c main_v39 (ix2 (0 : Fin 1) q)) (V c main_arg7) (fun q => V c main_v40 (ix2 (0 : Fin 1) q)) (V c main_arg9) (fun q => V c main_v41 (ix2 (0 : Fin 1) q)) (fun q => V c main_v42 (ix2 (0 : Fin 1) q)) (fun q => V c main_v43 (ix2 (0 : Fin 1) q)) (fun q => V c main_v44 (ix2 (0 : Fin 1) q)) (fun q => V c main_v45 (ix2 (0 : Fin 1) q))) :=
  (dat1 V c).arrAt_eq_of_cover 13 _ (fun t _ => flushed_eq V c t) cover

end Cert.KernelIdeal.NodeBlocks

end
-- ==== Proof.RefNode.lean ====
/-
  The node stage of the reference, read one entry at a time.

  For a node `p` with feature row `h`, aggregated messages `raw` and degree scale `cn`, the reference forms
  `r = h + (raw · cn) W2 + b2`, normalises it (subtract the mean of the row, divide by the root of the mean squared
  deviation plus a small constant, scale by `g1` and shift by `be1`) to a row `m`, forms
  `s = m + max (m W3 + b3) 0 W4 + b4` through a hidden row of 512 entries, and normalises `s` with `g2` and `be2`.
  Each step is read at row `p`: a product with a matrix is the sum over the contracted coordinate, a sum along a row
  starts from the zero word, which is `0`, and a quantity spread over a row (a mean, a scale, a bias) is its one entry.
  The steps are proved in the order of the computation, each for an arbitrary row that the entries before it are known
  to equal, so that the final statement is their composition: the result at `(p, q)` is `Cert.Spec.nodeRow` of rows `p`
  of the features and of the aggregated messages and of the degree scale's entry for `p`, taken at `q`. The aggregated
  messages and the degree scales enter as given arrays.
-/
import proofs.«136505_j38603166057018_2_alg».proof.Proof.Spec
import proofs.«136505_j38603166057018_2_alg».proof.Proof.Gen.ReferenceIdeal.Read

noncomputable section

open scoped BigOperators
open Cert.ReferenceIdeal Cert.ReferenceIdeal.Read Idealize.ShloMosaic Idealize.ShloMosaic.ValueIdx

namespace Cert.RefSide

/-! The index maps of the operations, composed, at an index given by its coordinates. -/

theorem lidx47 (p : Fin 100000) (q k : Fin 128) : lidx_main_v47 (ix2 p q) k = ix2 p k :=
  funext fun a => Fin.ext (by match a with | ⟨0, _⟩ => rfl | ⟨1, _⟩ => rfl)
theorem ridx47 (p : Fin 100000) (q k : Fin 128) : ridx_main_v47 (ix2 p q) k = ix2 k q :=
  funext fun a => Fin.ext (by match a with | ⟨0, _⟩ => rfl | ⟨1, _⟩ => rfl)
theorem idx45 (p : Fin 100000) (k : Fin 128) : idx_main_v45 (ix2 p k) = ix2 p (0 : Fin 1) :=
  funext fun a => Fin.ext (by match a with | ⟨0, _⟩ => rfl | ⟨1, _⟩ => rfl)
theorem idx48_49 (p : Fin 100000) (q : Fin 128) : idx_main_v48 (idx_main_v49 (ix2 p q)) = ix1 q :=
  funext fun a => Fin.ext (by match a with | ⟨0, _⟩ => rfl)
theorem idx52_53 (p : Fin 100000) (k : Fin 128) : idx_main_v52 (idx_main_v53 (ix2 p (0 : Fin 1))) k = ix2 p k :=
  funext fun a => Fin.ext (by match a with | ⟨0, _⟩ => rfl | ⟨1, _⟩ => rfl)
theorem idx56 (p : Fin 100000) (k : Fin 128) : idx_main_v56 (ix2 p k) = ix2 p (0 : Fin 1) :=
  funext fun a => Fin.ext (by match a with | ⟨0, _⟩ => rfl | ⟨1, _⟩ => rfl)
theorem idx59_60 (p : Fin 100000) (k : Fin 128) : idx_main_v59 (idx_main_v60 (ix2 p (0 : Fin 1))) k = ix2 p k :=
  funext fun a => Fin.ext (by match a with | ⟨0, _⟩ => rfl | ⟨1, _⟩ => rfl)
theorem idx63 (p : Fin 100000) (k : Fin 128) : idx_main_v63 (ix2 p k) = ix2 p (0 : Fin 1) :=
  funext fun a => Fin.ext (by match a with | ⟨0, _⟩ => rfl | ⟨1, _⟩ => rfl)
theorem idx68 (p : Fin 100000) (k : Fin 128) : idx_main_v68 (ix2 p k) = ix2 p (0 : Fin 1) :=
  funext fun a => Fin.ext (by match a with | ⟨0, _⟩ => rfl | ⟨1, _⟩ => rfl)
theorem idx70_71 (p : Fin 100000) (q : Fin 128) : idx_main_v70 (idx_main_v71 (ix2 p q)) = ix1 q :=
  funext fun a => Fin.ext (by match a with | ⟨0, _⟩ => rfl)
theorem idx73_74 (p : Fin 100000) (q : Fin 128) : idx_main_v73 (idx_main_v74 (ix2 p q)) = ix1 q :=
  funext fun a => Fin.ext (by match a with | ⟨0, _⟩ => rfl)
theorem lidx76 (p : Fin 100000) (r : Fin 512) (k : Fin 128) : lidx_main_v76 (ix2 p r) k = ix2 p k :=
  funext fun a => Fin.ext (by match a with | ⟨0, _⟩ => rfl | ⟨1, _⟩ => rfl)
theorem ridx76 (p : Fin 100000) (r : Fin 512) (k : Fin 128) : ridx_main_v76 (ix2 p r) k = ix2 k r :=
  funext fun a => Fin.ext (by match a with | ⟨0, _⟩ => rfl | ⟨1, _⟩ => rfl)
theorem idx77_78 (p : Fin 100000) (r : Fin 512) : idx_main_v77 (idx_main_v78 (ix2 p r)) = ix1 r :=
  funext fun a => Fin.ext (by match a with | ⟨0, _⟩ => rfl)
theorem lidx81 (p : Fin 100000) (q : Fin 128) (r : Fin 512) : lidx_main_v81 (ix2 p q) r = ix2 p r :=
  funext fun a => Fin.ext (by match a with | ⟨0, _⟩ => rfl | ⟨1, _⟩ => rfl)
theorem ridx81 (p : Fin 100000) (q : Fin 128) (r : Fin 512) : ridx_main_v81 (ix2 p q) r = ix2 r q :=
  funext fun a => Fin.ext (by match a with | ⟨0, _⟩ => rfl | ⟨1, _⟩ => rfl)
theorem idx82_83 (p : Fin 100000) (q : Fin 128) : idx_main_v82 (idx_main_v83 (ix2 p q)) = ix1 q :=
  funext fun a => Fin.ext (by match a with | ⟨0, _⟩ => rfl)
theorem idx86_87 (p : Fin 100000) (k : Fin 128) : idx_main_v86 (idx_main_v87 (ix2 p (0 : Fin 1))) k = ix2 p k :=
  funext fun a => Fin.ext (by match a with | ⟨0, _⟩ => rfl | ⟨1, _⟩ => rfl)
theorem idx90 (p : Fin 100000) (k : Fin 128) : idx_main_v90 (ix2 p k) = ix2 p (0 : Fin 1) :=
  funext fun a => Fin.ext (by match a with | ⟨0, _⟩ => rfl | ⟨1, _⟩ => rfl)
theorem idx93_94 (p : Fin 100000) (k : Fin 128) : idx_main_v93 (idx_main_v94 (ix2 p (0 : Fin 1))) k = ix2 p k :=
  funext fun a => Fin.ext (by match a with | ⟨0, _⟩ => rfl | ⟨1, _⟩ => rfl)
theorem idx97 (p : Fin 100000) (k : Fin 128) : idx_main_v97 (ix2 p k) = ix2 p (0 : Fin 1) :=
  funext fun a => Fin.ext (by match a with | ⟨0, _⟩ => rfl | ⟨1, _⟩ => rfl)
theorem idx102 (p : Fin 100000) (k : Fin 128) : idx_main_v102 (ix2 p k) = ix2 p (0 : Fin 1) :=
  funext fun a => Fin.ext (by match a with | ⟨0, _⟩ => rfl | ⟨1, _⟩ => rfl)
theorem idx104_105 (p : Fin 100000) (q : Fin 128) : idx_main_v104 (idx_main_v105 (ix2 p q)) = ix1 q :=
  funext fun a => Fin.ext (by match a with | ⟨0, _⟩ => rfl)
theorem idx107_108 (p : Fin 100000) (q : Fin 128) : idx_main_v107 (idx_main_v108 (ix2 p q)) = ix1 q :=
  funext fun a => Fin.ext (by match a with | ⟨0, _⟩ => rfl)

/-! The row before the first normalisation. -/

/-- Entry `q` of row `p` of `h + (raw · cn) W2 + b2`. -/
theorem v51_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (p : Fin 100000) (q : Fin 128) :
    val_main_v51 (F := Ideal) x0 x1 x2 x3 x4 x5 x6 (ix2 p q)
      = x0 (ix2 p q) + Cert.Spec.lin (fun k => val_main_v44 (F := Ideal) x0 x1 x2 x3 x4 (ix2 p k) * val_main_v12 (F := Ideal) x1 (ix2 p (0 : Fin 1)))
          (fun k q => x5 (ix2 k q)) (fun q => x6 (ix1 q)) q := by
  rw [val_main_v51_apply, val_main_v50_apply, val_main_v47_apply, val_main_v49_apply, val_main_v48_apply]
  simp -implicitDefEqProofs only [val_main_v46_apply, val_main_v45_apply, lidx47, ridx47, idx45, idx48_49, Ideal.mulf_def, Ideal.addf_def]
  unfold Cert.Spec.lin
  with_reducible rfl

/-! The first normalisation, for a row `r` that the entries before it are known to equal. -/

/-- The mean of row `p`. -/
theorem v55_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (p : Fin 100000) (r : Fin 128 → EReal) (hr : ∀ k : Fin 128, val_main_v51 (F := Ideal) x0 x1 x2 x3 x4 x5 x6 (ix2 p k) = r k) :
    val_main_v55 (F := Ideal) x0 x1 x2 x3 x4 x5 x6 (ix2 p (0 : Fin 1)) = Cert.Spec.mean r := by
  rw [val_main_v55_apply, val_main_v53_apply, val_main_v52_apply, val_main_v54_apply, val_main_cst_10_apply, val_main_cst_9_apply]
  simp -implicitDefEqProofs only [idx52_53, hr, Ideal.hostDivf_def, Ideal.ofBits_def, Ideal.ofBits_zero_f32, zero_add]
  unfold Cert.Spec.mean
  with_reducible rfl

/-- The mean squared deviation of row `p`. -/
theorem v62_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (p : Fin 100000) (r : Fin 128 → EReal) (hr : ∀ k : Fin 128, val_main_v51 (F := Ideal) x0 x1 x2 x3 x4 x5 x6 (ix2 p k) = r k) :
    val_main_v62 (F := Ideal) x0 x1 x2 x3 x4 x5 x6 (ix2 p (0 : Fin 1)) = Cert.Spec.mean (fun k => (r k - Cert.Spec.mean r) * (r k - Cert.Spec.mean r)) := by
  rw [val_main_v62_apply, val_main_v60_apply, val_main_v59_apply, val_main_v61_apply, val_main_cst_12_apply, val_main_cst_11_apply]
  simp -implicitDefEqProofs only [idx59_60, val_main_v58_apply, val_main_v57_apply, val_main_v56_apply, idx56, hr, v55_at x0 x1 x2 x3 x4 x5 x6 p r hr,
    Ideal.hostDivf_def, Ideal.ofBits_def, Ideal.ofBits_zero_f32, zero_add, Ideal.mulf_def, Ideal.subf_def]
  unfold Cert.Spec.mean
  with_reducible rfl

/-- Entry `q` of the normalised row `p`. -/
theorem v75_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128, .f32⟩ : BufTy).Contents (Elt Ideal)) (x12 : (⟨S128, .f32⟩ : BufTy).Contents (Elt Ideal)) (p : Fin 100000) (r : Fin 128 → EReal) (hr : ∀ k : Fin 128, val_main_v51 (F := Ideal) x0 x1 x2 x3 x4 x5 x6 (ix2 p k) = r k) (q : Fin 128) :
    val_main_v75 (F := Ideal) x0 x1 x2 x3 x4 x5 x6 x11 x12 (ix2 p q) = Cert.Spec.layerNorm r (fun q => x11 (ix1 q)) (fun q => x12 (ix1 q)) q := by
  rw [val_main_v75_apply, val_main_v72_apply, val_main_v69_apply, val_main_v64_apply, val_main_v63_apply, val_main_v68_apply,
    val_main_v67_apply, val_main_v66_apply, val_main_v65_apply, val_main_cst_13_apply, val_main_v71_apply, val_main_v70_apply,
    val_main_v74_apply, val_main_v73_apply]
  rw [idx63, idx68, idx70_71, idx73_74, hr, v55_at x0 x1 x2 x3 x4 x5 x6 p r hr, v62_at x0 x1 x2 x3 x4 x5 x6 p r hr]
  simp -implicitDefEqProofs only [Ideal.hostUnary_rsqrt_def, Ideal.ofBits_def, Ideal.mulf_def, Ideal.subf_def, Ideal.addf_def]
  unfold Cert.Spec.layerNorm
  with_reducible rfl

/-! The feed-forward block, for a row `m` that the entries of the normalised row are known to equal. -/

/-- Entry `t` of the hidden row `max (m W3 + b3) 0`. -/
theorem v80_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x512, .f32⟩ : BufTy).Contents (Elt Ideal)) (x8 : (⟨S512, .f32⟩ : BufTy).Contents (Elt Ideal)) (x11 : (⟨S128, .f32⟩ : BufTy).Contents (Elt Ideal)) (x12 : (⟨S128, .f32⟩ : BufTy).Contents (Elt Ideal)) (p : Fin 100000) (m : Fin 128 → EReal) (hm : ∀ k : Fin 128, val_main_v75 (F := Ideal) x0 x1 x2 x3 x4 x5 x6 x11 x12 (ix2 p k) = m k) (t : Fin 512) :
    val_main_v80 (F := Ideal) x0 x1 x2 x3 x4 x5 x6 x7 x8 x11 x12 (ix2 p t) = max (Cert.Spec.lin m (fun k r => x7 (ix2 k r)) (fun r => x8 (ix1 r)) t) (Ideal.ofBits .f32 0x00000000#32) := by
  rw [val_main_v80_apply, val_main_v79_apply, val_main_v76_apply, val_main_v78_apply, val_main_v77_apply,
    val_main_call0_v0_apply, val_main_call0_cst_apply]
  simp -implicitDefEqProofs only [lidx76, ridx76, idx77_78, hm, Ideal.maximumf_def, Ideal.ofBits_def, Ideal.addf_def]
  unfold Cert.Spec.lin
  with_reducible rfl

/-- Entry `q` of the row `m + max (m W3 + b3) 0 W4 + b4`. -/
theorem v85_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (p : Fin 100000) (m : Fin 128 → EReal) (hm : ∀ k : Fin 128, val_main_v75 (F := Ideal) x0 x1 x2 x3 x4 x5 x6 x11 x12 (ix2 p k) = m k) (q : Fin 128) :
    val_main_v85 (F := Ideal) x0 x1 x2 x3 x4 x5 x6 x7 x8 x9 x10 x11 x12 (ix2 p q)
      = m q + Cert.Spec.lin (fun t => max (Cert.Spec.lin m (fun k r => x7 (ix2 k r)) (fun r => x8 (ix1 r)) t) (Ideal.ofBits .f32 0x00000000#32)) (fun r q => x9 (ix2 r q)) (fun q => x10 (ix1 q)) q := by
  rw [val_main_v85_apply, val_main_v84_apply, val_main_v81_apply, val_main_v83_apply, val_main_v82_apply, hm]
  simp -implicitDefEqProofs only [lidx81, ridx81, idx82_83, v80_at x0 x1 x2 x3 x4 x5 x6 x7 x8 x11 x12 p m hm, Ideal.addf_def]
  unfold Cert.Spec.lin
  with_reducible rfl

/-! The second normalisation, for a row `s` that the entries before it are known to equal. -/

/-- The mean of row `p`. -/
theorem v89_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (p : Fin 100000) (s : Fin 128 → EReal) (hs : ∀ k : Fin 128, val_main_v85 (F := Ideal) x0 x1 x2 x3 x4 x5 x6 x7 x8 x9 x10 x11 x12 (ix2 p k) = s k) :
    val_main_v89 (F := Ideal) x0 x1 x2 x3 x4 x5 x6 x7 x8 x9 x10 x11 x12 (ix2 p (0 : Fin 1)) = Cert.Spec.mean s := by
  rw [val_main_v89_apply, val_main_v87_apply, val_main_v86_apply, val_main_v88_apply, val_main_cst_15_apply, val_main_cst_14_apply]
  simp -implicitDefEqProofs only [idx86_87, hs, Ideal.hostDivf_def, Ideal.ofBits_def, Ideal.ofBits_zero_f32, zero_add]
  unfold Cert.Spec.mean
  with_reducible rfl

/-- The mean squared deviation of row `p`. -/
theorem v96_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (p : Fin 100000) (s : Fin 128 → EReal) (hs : ∀ k : Fin 128, val_main_v85 (F := Ideal) x0 x1 x2 x3 x4 x5 x6 x7 x8 x9 x10 x11 x12 (ix2 p k) = s k) :
    val_main_v96 (F := Ideal) x0 x1 x2 x3 x4 x5 x6 x7 x8 x9 x10 x11 x12 (ix2 p (0 : Fin 1)) = Cert.Spec.mean (fun k => (s k - Cert.Spec.mean s) * (s k - Cert.Spec.mean s)) := by
  rw [val_main_v96_apply, val_main_v94_apply, val_main_v93_apply, val_main_v95_apply, val_main_cst_17_apply, val_main_cst_16_apply]
  simp -implicitDefEqProofs only [idx93_94, val_main_v92_apply, val_main_v91_apply, val_main_v90_apply, idx90, hs, v89_at x0 x1 x2 x3 x4 x5 x6 x7 x8 x9 x10 x11 x12 p s hs,
    Ideal.hostDivf_def, Ideal.ofBits_def, Ideal.ofBits_zero_f32, zero_add, Ideal.mulf_def, Ideal.subf_def]
  unfold Cert.Spec.mean
  with_reducible rfl

/-- Entry `q` of the normalised row `p`. -/
theorem v109_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (p : Fin 100000) (s : Fin 128 → EReal) (hs : ∀ k : Fin 128, val_main_v85 (F := Ideal) x0 x1 x2 x3 x4 x5 x6 x7 x8 x9 x10 x11 x12 (ix2 p k) = s k) (q : Fin 128) :
    val_main_v109 (F := Ideal) x0 x1 x2 x3 x4 x5 x6 x7 x8 x9 x10 x11 x12 x13 x14 (ix2 p q) = Cert.Spec.layerNorm s (fun q => x13 (ix1 q)) (fun q => x14 (ix1 q)) q := by
  rw [val_main_v109_apply, val_main_v106_apply, val_main_v103_apply, val_main_v98_apply, val_main_v97_apply, val_main_v102_apply,
    val_main_v101_apply, val_main_v100_apply, val_main_v99_apply, val_main_cst_18_apply, val_main_v105_apply, val_main_v104_apply,
    val_main_v108_apply, val_main_v107_apply]
  rw [idx97, idx102, idx104_105, idx107_108, hs, v89_at x0 x1 x2 x3 x4 x5 x6 x7 x8 x9 x10 x11 x12 p s hs, v96_at x0 x1 x2 x3 x4 x5 x6 x7 x8 x9 x10 x11 x12 p s hs]
  simp -implicitDefEqProofs only [Ideal.hostUnary_rsqrt_def, Ideal.ofBits_def, Ideal.mulf_def, Ideal.subf_def, Ideal.addf_def]
  unfold Cert.Spec.layerNorm
  with_reducible rfl

/-! The node stage. -/

/-- The node stage of the reference is the row function `nodeRow` applied row by row to the node features, the
    aggregated messages and the degree scales. -/
theorem node_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x512, .f32⟩ : BufTy).Contents (Elt Ideal)) (x8 : (⟨S512, .f32⟩ : BufTy).Contents (Elt Ideal)) (x9 : (⟨S512x128, .f32⟩ : BufTy).Contents (Elt Ideal)) (x10 x11 x12 x13 x14 : (⟨S128, .f32⟩ : BufTy).Contents (Elt Ideal)) :
    val_main_v109 (F := Ideal) x0 x1 x2 x3 x4 x5 x6 x7 x8 x9 x10 x11 x12 x13 x14
      = Cert.Spec.nodeArr x0 (val_main_v44 (F := Ideal) x0 x1 x2 x3 x4) (val_main_v12 (F := Ideal) x1) x5 (fun q => x6 (ix1 q)) x7 (fun r => x8 (ix1 r)) x9 (fun q => x10 (ix1 q)) (fun q => x11 (ix1 q)) (fun q => x12 (ix1 q)) (fun q => x13 (ix1 q)) (fun q => x14 (ix1 q)) := by
  funext j
  obtain ⟨p, q, rfl⟩ : ∃ (p : Fin 100000) (q : Fin 128), j = ix2 p q := ⟨j 0, j 1, eq_ix2 j⟩
  rw [Cert.Spec.nodeArr_apply]
  have h51 := fun k : Fin 128 => v51_at x0 x1 x2 x3 x4 x5 x6 p k
  have h75 := fun k : Fin 128 => v75_at x0 x1 x2 x3 x4 x5 x6 x11 x12 p _ h51 k
  have h85 := fun k : Fin 128 => v85_at x0 x1 x2 x3 x4 x5 x6 x7 x8 x9 x10 x11 x12 p _ h75 k
  rw [v109_at x0 x1 x2 x3 x4 x5 x6 x7 x8 x9 x10 x11 x12 x13 x14 p _ h85 q]
  unfold Cert.Spec.nodeRow Cert.Spec.ffnRow Cert.Spec.midRow
  with_reducible rfl

end Cert.RefSide

end
-- ==== Proof.KGlue1.lean ====
/-
  What the node region is entered with, and what the program returns, as functions of the launch arrays. Between the two
  regions the program gathers the hyperedge features along the edges and adds them up per node: the same two host
  operations the reference applies to the same features, so the node region's message array is the reference's. The
  region's output array is then the reference's result.
-/
import proofs.«136505_j38603166057018_2_alg».proof.Proof.KGlue0
import proofs.«136505_j38603166057018_2_alg».proof.Proof.KBlocks1
import proofs.«136505_j38603166057018_2_alg».proof.Proof.RefNode

set_option maxRecDepth 16384

noncomputable section

namespace Cert.KernelIdeal.Glue

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (ρ : Dev nD → PrngReg)
set_option maxHeartbeats 4000000 in
/-- Argument 0 is as launched when the first region is entered. -/
theorem entry0_arg0 (c : Dev nD) : V1 m ρ c main_arg0 = (m ((c : Thread nD τ).loc main_arg0)) := by
  show StableHlo.after hostOps0 (W0 m ρ c) (Proc.devRef .tc main_arg0) = _
  after_results_simp

set_option maxHeartbeats 4000000 in
/-- Argument 5 is as launched when the first region is entered. -/
theorem entry0_arg5 (c : Dev nD) : V1 m ρ c main_arg5 = (m ((c : Thread nD τ).loc main_arg5)) := by
  show StableHlo.after hostOps0 (W0 m ρ c) (Proc.devRef .tc main_arg5) = _
  after_results_simp

set_option maxHeartbeats 4000000 in
/-- Argument 6 is as launched when the first region is entered. -/
theorem entry0_arg6 (c : Dev nD) : V1 m ρ c main_arg6 = (m ((c : Thread nD τ).loc main_arg6)) := by
  show StableHlo.after hostOps0 (W0 m ρ c) (Proc.devRef .tc main_arg6) = _
  after_results_simp

set_option maxHeartbeats 4000000 in
/-- Argument 7 is as launched when the first region is entered. -/
theorem entry0_arg7 (c : Dev nD) : V1 m ρ c main_arg7 = (m ((c : Thread nD τ).loc main_arg7)) := by
  show StableHlo.after hostOps0 (W0 m ρ c) (Proc.devRef .tc main_arg7) = _
  after_results_simp

set_option maxHeartbeats 4000000 in
/-- Argument 8 is as launched when the first region is entered. -/
theorem entry0_arg8 (c : Dev nD) : V1 m ρ c main_arg8 = (m ((c : Thread nD τ).loc main_arg8)) := by
  show StableHlo.after hostOps0 (W0 m ρ c) (Proc.devRef .tc main_arg8) = _
  after_results_simp

set_option maxHeartbeats 4000000 in
/-- Argument 9 is as launched when the first region is entered. -/
theorem entry0_arg9 (c : Dev nD) : V1 m ρ c main_arg9 = (m ((c : Thread nD τ).loc main_arg9)) := by
  show StableHlo.after hostOps0 (W0 m ρ c) (Proc.devRef .tc main_arg9) = _
  after_results_simp

set_option maxHeartbeats 4000000 in
/-- Argument 10 is as launched when the first region is entered. -/
theorem entry0_arg10 (c : Dev nD) : V1 m ρ c main_arg10 = (m ((c : Thread nD τ).loc main_arg10)) := by
  show StableHlo.after hostOps0 (W0 m ρ c) (Proc.devRef .tc main_arg10) = _
  after_results_simp

set_option maxHeartbeats 4000000 in
/-- Argument 11 is as launched when the first region is entered. -/
theorem entry0_arg11 (c : Dev nD) : V1 m ρ c main_arg11 = (m ((c : Thread nD τ).loc main_arg11)) := by
  show StableHlo.after hostOps0 (W0 m ρ c) (Proc.devRef .tc main_arg11) = _
  after_results_simp

set_option maxHeartbeats 4000000 in
/-- Argument 12 is as launched when the first region is entered. -/
theorem entry0_arg12 (c : Dev nD) : V1 m ρ c main_arg12 = (m ((c : Thread nD τ).loc main_arg12)) := by
  show StableHlo.after hostOps0 (W0 m ρ c) (Proc.devRef .tc main_arg12) = _
  after_results_simp

set_option maxHeartbeats 4000000 in
/-- Argument 13 is as launched when the first region is entered. -/
theorem entry0_arg13 (c : Dev nD) : V1 m ρ c main_arg13 = (m ((c : Thread nD τ).loc main_arg13)) := by
  show StableHlo.after hostOps0 (W0 m ρ c) (Proc.devRef .tc main_arg13) = _
  after_results_simp

set_option maxHeartbeats 4000000 in
/-- Argument 14 is as launched when the first region is entered. -/
theorem entry0_arg14 (c : Dev nD) : V1 m ρ c main_arg14 = (m ((c : Thread nD τ).loc main_arg14)) := by
  show StableHlo.after hostOps0 (W0 m ρ c) (Proc.devRef .tc main_arg14) = _
  after_results_simp

set_option maxHeartbeats 4000000 in
/-- The messages aggregated on the nodes, as the node region finds them: the reference's own stage. -/
theorem entry1_v38 (c : Dev nD) :
    V3 m ρ c main_v38 = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v38) = _
  after_results_simp
  rw [hyper_out,
    show W2 m ρ c (Proc.devRef .tc main_arg1) = (m ((c : Thread nD τ).loc main_arg1)) from (W2_of_ne m ρ c main_arg1 (by decide)).trans (entry0_arg1 m ρ c),
    show W2 m ρ c (Proc.devRef .tc main_arg2) = (m ((c : Thread nD τ).loc main_arg2)) from (W2_of_ne m ρ c main_arg2 (by decide)).trans (entry0_arg2 m ρ c)]
  rfl
set_option maxHeartbeats 4000000 in
/-- The nodes' degree scale is untouched between the regions. -/
theorem entry1_v12 (c : Dev nD) : V3 m ρ c main_v12 = Cert.ReferenceIdeal.Read.val_main_v12 (F := Ideal) (m ((c : Thread nD τ).loc main_arg1)) := by
  show StableHlo.after hostOps1 (W2 m ρ c) (Proc.devRef .tc main_v12) = _
  after_results_simp
  refine (W2_of_ne m ρ c main_v12 (by decide)).trans ?_
  exact entry0_v12 m ρ c
set_option maxHeartbeats 4000000 in
/-- Argument 0 is as launched when the node region is entered. -/
theorem entry1_arg0 (c : Dev nD) : V3 m ρ c main_arg0 = (m ((c : Thread nD τ).loc main_arg0)) := by
  show StableHlo.after hostOps1 (W2 m ρ c) (Proc.devRef .tc main_arg0) = _
  after_results_simp
  refine (W2_of_ne m ρ c main_arg0 (by decide)).trans ?_
  exact entry0_arg0 m ρ c
set_option maxHeartbeats 4000000 in
/-- Argument 5 is as launched when the node region is entered. -/
theorem entry1_arg5 (c : Dev nD) : V3 m ρ c main_arg5 = (m ((c : Thread nD τ).loc main_arg5)) := by
  show StableHlo.after hostOps1 (W2 m ρ c) (Proc.devRef .tc main_arg5) = _
  after_results_simp
  refine (W2_of_ne m ρ c main_arg5 (by decide)).trans ?_
  exact entry0_arg5 m ρ c
set_option maxHeartbeats 4000000 in
/-- Argument 7 is as launched when the node region is entered. -/
theorem entry1_arg7 (c : Dev nD) : V3 m ρ c main_arg7 = (m ((c : Thread nD τ).loc main_arg7)) := by
  show StableHlo.after hostOps1 (W2 m ρ c) (Proc.devRef .tc main_arg7) = _
  after_results_simp
  refine (W2_of_ne m ρ c main_arg7 (by decide)).trans ?_
  exact entry0_arg7 m ρ c
set_option maxHeartbeats 4000000 in
/-- Argument 9 is as launched when the node region is entered. -/
theorem entry1_arg9 (c : Dev nD) : V3 m ρ c main_arg9 = (m ((c : Thread nD τ).loc main_arg9)) := by
  show StableHlo.after hostOps1 (W2 m ρ c) (Proc.devRef .tc main_arg9) = _
  after_results_simp
  refine (W2_of_ne m ρ c main_arg9 (by decide)).trans ?_
  exact entry0_arg9 m ρ c
set_option maxHeartbeats 4000000 in
/-- The bias b2 reshaped to one row. -/
theorem entry1_v39 (c : Dev nD) :
    (fun q : Fin 128 => V3 m ρ c main_v39 (ix2 (0 : Fin 1) q)) = fun q => (m ((c : Thread nD τ).loc main_arg6)) (ix1 q) := funext fun q => by
  show StableHlo.after hostOps1 (W2 m ρ c) (Proc.devRef .tc main_v39) (ix2 (0 : Fin 1) q) = _
  after_results_simp
  rw [show W2 m ρ c (Proc.devRef .tc main_arg6) = (m ((c : Thread nD τ).loc main_arg6)) from
    (W2_of_ne m ρ c main_arg6 (by decide)).trans (entry0_arg6 m ρ c)]
  exact shapeCast_a_1a_apply _ _ (0 : Fin 1) q
set_option maxHeartbeats 4000000 in
/-- The bias b3 reshaped to one row. -/
theorem entry1_v40 (c : Dev nD) :
    (fun q : Fin 512 => V3 m ρ c main_v40 (ix2 (0 : Fin 1) q)) = fun q => (m ((c : Thread nD τ).loc main_arg8)) (ix1 q) := funext fun q => by
  show StableHlo.after hostOps1 (W2 m ρ c) (Proc.devRef .tc main_v40) (ix2 (0 : Fin 1) q) = _
  after_results_simp
  rw [show W2 m ρ c (Proc.devRef .tc main_arg8) = (m ((c : Thread nD τ).loc main_arg8)) from
    (W2_of_ne m ρ c main_arg8 (by decide)).trans (entry0_arg8 m ρ c)]
  exact shapeCast_a_1a_apply _ _ (0 : Fin 1) q
set_option maxHeartbeats 4000000 in
/-- The bias b4 reshaped to one row. -/
theorem entry1_v41 (c : Dev nD) :
    (fun q : Fin 128 => V3 m ρ c main_v41 (ix2 (0 : Fin 1) q)) = fun q => (m ((c : Thread nD τ).loc main_arg10)) (ix1 q) := funext fun q => by
  show StableHlo.after hostOps1 (W2 m ρ c) (Proc.devRef .tc main_v41) (ix2 (0 : Fin 1) q) = _
  after_results_simp
  rw [show W2 m ρ c (Proc.devRef .tc main_arg10) = (m ((c : Thread nD τ).loc main_arg10)) from
    (W2_of_ne m ρ c main_arg10 (by decide)).trans (entry0_arg10 m ρ c)]
  exact shapeCast_a_1a_apply _ _ (0 : Fin 1) q
set_option maxHeartbeats 4000000 in
/-- The first scale reshaped to one row. -/
theorem entry1_v42 (c : Dev nD) :
    (fun q : Fin 128 => V3 m ρ c main_v42 (ix2 (0 : Fin 1) q)) = fun q => (m ((c : Thread nD τ).loc main_arg11)) (ix1 q) := funext fun q => by
  show StableHlo.after hostOps1 (W2 m ρ c) (Proc.devRef .tc main_v42) (ix2 (0 : Fin 1) q) = _
  after_results_simp
  rw [show W2 m ρ c (Proc.devRef .tc main_arg11) = (m ((c : Thread nD τ).loc main_arg11)) from
    (W2_of_ne m ρ c main_arg11 (by decide)).trans (entry0_arg11 m ρ c)]
  exact shapeCast_a_1a_apply _ _ (0 : Fin 1) q
set_option maxHeartbeats 4000000 in
/-- The first shift reshaped to one row. -/
theorem entry1_v43 (c : Dev nD) :
    (fun q : Fin 128 => V3 m ρ c main_v43 (ix2 (0 : Fin 1) q)) = fun q => (m ((c : Thread nD τ).loc main_arg12)) (ix1 q) := funext fun q => by
  show StableHlo.after hostOps1 (W2 m ρ c) (Proc.devRef .tc main_v43) (ix2 (0 : Fin 1) q) = _
  after_results_simp
  rw [show W2 m ρ c (Proc.devRef .tc main_arg12) = (m ((c : Thread nD τ).loc main_arg12)) from
    (W2_of_ne m ρ c main_arg12 (by decide)).trans (entry0_arg12 m ρ c)]
  exact shapeCast_a_1a_apply _ _ (0 : Fin 1) q
set_option maxHeartbeats 4000000 in
/-- The second scale reshaped to one row. -/
theorem entry1_v44 (c : Dev nD) :
    (fun q : Fin 128 => V3 m ρ c main_v44 (ix2 (0 : Fin 1) q)) = fun q => (m ((c : Thread nD τ).loc main_arg13)) (ix1 q) := funext fun q => by
  show StableHlo.after hostOps1 (W2 m ρ c) (Proc.devRef .tc main_v44) (ix2 (0 : Fin 1) q) = _
  after_results_simp
  rw [show W2 m ρ c (Proc.devRef .tc main_arg13) = (m ((c : Thread nD τ).loc main_arg13)) from
    (W2_of_ne m ρ c main_arg13 (by decide)).trans (entry0_arg13 m ρ c)]
  exact shapeCast_a_1a_apply _ _ (0 : Fin 1) q
set_option maxHeartbeats 4000000 in
/-- The second shift reshaped to one row. -/
theorem entry1_v45 (c : Dev nD) :
    (fun q : Fin 128 => V3 m ρ c main_v45 (ix2 (0 : Fin 1) q)) = fun q => (m ((c : Thread nD τ).loc main_arg14)) (ix1 q) := funext fun q => by
  show StableHlo.after hostOps1 (W2 m ρ c) (Proc.devRef .tc main_v45) (ix2 (0 : Fin 1) q) = _
  after_results_simp
  rw [show W2 m ρ c (Proc.devRef .tc main_arg14) = (m ((c : Thread nD τ).loc main_arg14)) from
    (W2_of_ne m ρ c main_arg14 (by decide)).trans (entry0_arg14 m ρ c)]
  exact shapeCast_a_1a_apply _ _ (0 : Fin 1) q

/-- THE PROGRAM'S RESULT: what the node region leaves in the result array is the reference's result term at the launch
    arrays. -/
theorem kernel_result (c : Dev nD) :
    W4 m ρ c (Proc.devRef .tc main_v46) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W4_arr m ρ c 13).trans ?_
  rw [Cert.KernelIdeal.NodeBlocks.final (V3 m ρ) c, Cert.RefSide.node_eq, entry1_v38, entry1_v12, entry1_arg0, entry1_arg5,
    entry1_arg7, entry1_arg9, entry1_v39, entry1_v40, entry1_v41, entry1_v42, entry1_v43, entry1_v44, entry1_v45]

end Cert.KernelIdeal.Glue

end
-- ==== Proof.lean ====
/-
  One layer of a hypergraph network — degree scales, node-to-hyperedge aggregation, a dense hyperedge stage, hyperedge-to-node
  aggregation, and a dense node stage (projection, residual, layer normalisation, feed-forward block, residual, layer
  normalisation) — computed by a program with two kernels against a plain reference, compared over the extended reals.

  The two programs apply the SAME host operations for the degree scales and for the two gather / scatter-add
  aggregations, so those are never opened: they are carried as the reference's own stage functions of the launch arrays.
  What differs is where the dense stages run. The kernels compute them block of rows by block of rows (4000 hyperedges,
  2000 nodes at a time), with matrix products into zero accumulators and lane sums; the reference computes them on whole
  arrays with dot products and reductions. Both are the same row functions (Proof/Spec.lean): every output row depends
  only on its own input rows, a block product is the plain sum over the contracted coordinate, and a change of float
  format is the identity on extended reals. No algebraic law beyond that is needed, so the finiteness of the inputs is
  never used.

  The frames of the two kernel programs are the generated ones; the reference's frame is its generated run with the
  result dropped; the idealization rewrote nothing, so there is nothing to preserve.
-/
import proofs.«136505_j38603166057018_2_alg».proof.Defs
import proofs.«136505_j38603166057018_2_alg».proof.Proof.Gen.Kernel
import proofs.«136505_j38603166057018_2_alg».proof.Proof.Gen.Kernel.Frame
import proofs.«136505_j38603166057018_2_alg».proof.Proof.Gen.KernelIdeal
import proofs.«136505_j38603166057018_2_alg».proof.Proof.Gen.KernelIdeal.Frame
import proofs.«136505_j38603166057018_2_alg».proof.Proof.Gen.ReferenceIdeal
import proofs.«136505_j38603166057018_2_alg».proof.Proof.Gen.ReferenceIdeal.Run
import proofs.«136505_j38603166057018_2_alg».proof.Proof.Gen.ReferenceIdeal.Read
import proofs.«136505_j38603166057018_2_alg».proof.Proof.Gen.Pre_finite_inputs
import proofs.«136505_j38603166057018_2_alg».proof.Proof.KRun
import proofs.«136505_j38603166057018_2_alg».proof.Proof.KGlue1
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the reference's result term at the kernel's launch
    arrays: the kernel program by its run with the result kept and the reading of its two regions, the reference by its
    generated run. -/
theorem algebraic : Cert.algebraic_KernelIdeal_ReferenceIdeal := by
  intro m ρ m' ρ' _ hagree
  refine ⟨fun c => Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Glue.kernel_result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v109_eq, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
